-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S512 .f32) (main_arg2 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S1024x1 : Shape := ⟨2, ![1024, 1]⟩
abbrev S512x512 : Shape := ⟨2, ![512, 512]⟩
abbrev S1024 : Shape := ⟨1, ![1024]⟩
abbrev S1x8192 : Shape := ⟨2, ![1, 8192]⟩
abbrev S1x512 : Shape := ⟨2, ![1, 512]⟩
abbrev S1x1024 : Shape := ⟨2, ![1, 1024]⟩
abbrev S512x1024 : Shape := ⟨2, ![512, 1024]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S8192x512, .bf16⟩
  | .hbm, ⟨15, _⟩ => ⟨S8192x512, .f32⟩
  | .hbm, ⟨16, _⟩ => ⟨S8192x1, .f32⟩
  | .hbm, ⟨17, _⟩ => ⟨S1x8192, .f32⟩
  | .hbm, ⟨18, _⟩ => ⟨S1x512, .f32⟩
  | .hbm, ⟨19, _⟩ => ⟨S1x512, .f32⟩
  | .hbm, ⟨20, _⟩ => ⟨S8192x512, .f32⟩
  | .local _ .vmem, ⟨0, _⟩ => ⟨S8192x512, .bf16⟩
  | .local _ .vmem, ⟨1, _⟩ => ⟨S8192x512, .bf16⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x512, .f32⟩
  | .local _ .vmem, ⟨8, _⟩ => ⟨S8192x512, .bf16⟩
  | .local _ .vmem, ⟨9, _⟩ => ⟨S8192x512, .bf16⟩
  | .local _ .vmem, ⟨10, _⟩ => ⟨S1x8192, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v2 : Index := Scalar.indexCast v1
  let c0 : Index := 0#32
  ![v2.toNat, 0]
@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v24 : BitVec 32 := Scalar.muli arg7 c512_i32
  v24
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v24 : BitVec 32 := Scalar.muli arg7 c512_i32
  let v25 : BitVec 32 := v24
  let v26 : Index := Scalar.indexCast v25
  let c0_17 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c512_i32 : BitVec 32 := 512#32
  let v0 : BitVec 32 := Scalar.muli arg0 c512_i32
  v0
def k1_off1 (i : grid1.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
@[reducible] def k1_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k1_mult2 (k1_t1 : Fin k1_t1_loop.trips) : BitVec 32 :=
  let c0_i32 : BitVec 32 := 0#32
  let c1_i32 : BitVec 32 := 1#32
  let arg10 : BitVec 32 := Scf.iv c0_i32 c1_i32 k1_t1
  let c1024_i32 : BitVec 32 := 1024#32
  let v45 : BitVec 32 := Scalar.muli arg10 c1024_i32
  v45
def k1_off2 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v45 : BitVec 32 := Scalar.muli arg10 c1024_i32
  let v46 : BitVec 32 := v45
  let v47 : Index := Scalar.indexCast v46
  let c0_21 : Index := 0#32
  ![v47.toNat, 0]
def k1_off3 (k1_t1 : Fin k1_t1_loop.trips) : Fin 2 → Nat :=
  let c0_23 : Index := 0#32
  let c0_i32 : BitVec 32 := 0#32
  let c1_i32 : BitVec 32 := 1#32
  let arg10 : BitVec 32 := Scf.iv c0_i32 c1_i32 k1_t1
  let c1024_i32 : BitVec 32 := 1024#32
  let v45 : BitVec 32 := Scalar.muli arg10 c1024_i32
  let v46 : BitVec 32 := v45
  let v53 : Index := Scalar.indexCast v46
  ![0, v53.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S512x512 : 0 < S512x512.numel
  shapeCasts_S512x512_S512x512 : S512x512.ShapeCasts S512x512
  transposes_S512x512_p1_0_S512x512 : S512x512.Transposes [1, 0] S512x512
  reduces_S1024x512_S1024 : S1024x512.Reduces [1] S1024
  shapeCasts_S1024_S1024x1 : S1024.ShapeCasts S1024x1
  broadcasts_S1024x1_S1024x512 : S1024x1.Broadcasts S1024x512
  transposes_S8192x1_S1x8192_1_0 : S8192x1.Transposes [1, 0] S1x8192
  shapeCasts_S512_S1x512 : S512.ShapeCasts S1x512
  inb_S512x512_S512x512_0_0 : ∀ a, (![0, 0] : Fin 2 → Nat) a + S512x512.size a ≤ S512x512.size a
  h_S1x1024 : 0 < S1x1024.numel
  shapeCasts_S1x1024_S1x1024 : S1x1024.ShapeCasts S1x1024
  transposes_S1024x512_p1_0_S512x1024 : S1024x512.Transposes [1, 0] S512x1024
  broadcasts_S1x1024_S512x1024 : S1x1024.Broadcasts S512x1024
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S1024x512_S512x512_S1024x512_1_0_0_1_n_n_wf : DotDims.WF S1024x512 S512x512 S1024x512 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  k0_t1_ok : k0_t1_loop.OK
  k0_mult2_dvd : ∀ k0_t1 : Fin k0_t1_loop.trips, 512 ∣ (k0_mult2 k0_t1).toNat
  k0_off2_inb : ∀ k0_t1 : Fin k0_t1_loop.trips, ∀ a, (k0_off2 k0_t1) a + S512x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x512.size a ≤ S8192x512.size a
  k1_t1_ok : k1_t1_loop.OK
  k1_mult2_dvd : ∀ k1_t1 : Fin k1_t1_loop.trips, 1024 ∣ (k1_mult2 k1_t1).toNat
  k1_off2_inb : ∀ k1_t1 : Fin k1_t1_loop.trips, ∀ a, (k1_off2 k1_t1) a + S1024x512.size a ≤ S8192x512.size a
  k1_off3_inb : ∀ k1_t1 : Fin k1_t1_loop.trips, ∀ a, (k1_off3 k1_t1) a + S1x1024.size a ≤ S1x8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x512.size a ≤ S8192x512.size a
  hwx1_0 : ∀ i : grid1.Coords, EltTy.bits .bf16 = 32 ∨ (Rect.block (s := S8192x512) S8192x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .f32 = 32 ∨ (Rect.block (s := S8192x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .f32 = 32 ∨ (Rect.block (s := S8192x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S8192x512.size a
  hwx1_7 : ∀ i : grid1.Coords, EltTy.bits .f32 = 32 ∨ (Rect.block (s := S8192x512) S512x512.size (cc1_transform_7 i) (hinb1_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v5) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8192x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S1x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x512, .f32⟩
  | .hbm, ⟨74, _⟩ => ⟨S8192x512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S1x512, .f32⟩
  | .hbm, ⟨79, _⟩ => ⟨S8192x512, .f32⟩
  | .hbm, ⟨80, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192x8192_S8192_d0 : S8192x8192.ReducesTo [0] S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KernelRun.lean ====
/-
  The idealized kernel's run with its result named: every weakly fair execution of @main ends with the result
  buffer holding what the second region's write-backs leave (the fold of the buffer contents through the two host
  stretches and the two regions, read at the result's reference), and with the three arguments as launched.
  The run itself is the two-region launch of the frame certificate; only the reading of the final state is new:
  the result's buffer is one more unscoped buffer read against the last boundary's contents.
-/
import proofs.«118167_j19035295056148_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer
    at the last boundary's contents and the arguments as launched. -/
theorem run_named : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Named

end
-- ==== Proof.KernelGlue.lean ====
/-
  The buffer contents between the segments of the idealized kernel's @main, read at the references the two
  regions take their windows from.

  Before the first region the host computes the row norms (an outlined function: multiply, sum over the feature
  axis, square root), floors them, divides the rows by them, and narrows both the quotient and the rows themselves
  to a 16-bit format. These are, operation for operation, the reference's own first operations, so the first window's
  array IS the reference's quotient (narrowed). The first region leaves its two inputs as entered and its two outputs
  at what the write-backs leave. Between the regions the log-sum-exp column is transposed to a row and the scale and
  shift vectors are reshaped to rows; nothing else is written.
-/
import proofs.«118167_j19035295056148_2_alg».proof.Proof.Gen.KernelIdeal.Frame
import proofs.«118167_j19035295056148_2_alg».proof.Proof.Gen.ReferenceIdeal.Read
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-- The launch contents of the three arguments. -/
abbrev X (c : Dev nD) : (⟨S8192x512, .f32⟩ : BufTy).Contents (Elt F) := m ((c : Thread nD τ).loc main_arg0)
abbrev Gm (c : Dev nD) : (⟨S512, .f32⟩ : BufTy).Contents (Elt F) := m ((c : Thread nD τ).loc main_arg1)
abbrev Bm (c : Dev nD) : (⟨S512, .f32⟩ : BufTy).Contents (Elt F) := m ((c : Thread nD τ).loc main_arg2)

/-! ## After the row-norm function and the normalisation stretch -/

theorem W1_arg0 (c : Dev nD) : W1 m ρ c (Proc.devRef .tc main_arg0) = X m c := by
  show StableHlo.after hostOps0 (W0 m ρ c) (Proc.devRef .tc main_arg0) = _
  after_results

theorem W1_arg1 (c : Dev nD) : W1 m ρ c (Proc.devRef .tc main_arg1) = Gm m c := by
  show StableHlo.after hostOps0 (W0 m ρ c) (Proc.devRef .tc main_arg1) = _
  after_results

theorem W1_arg2 (c : Dev nD) : W1 m ρ c (Proc.devRef .tc main_arg2) = Bm m c := by
  show StableHlo.after hostOps0 (W0 m ρ c) (Proc.devRef .tc main_arg2) = _
  after_results

/-- The row norms `sqrt (∑ d, x r d * x r d)`, as a column: the same host operations as the reference's. -/
theorem W1_v0 (c : Dev nD) : W1 m ρ c (Proc.devRef .tc main_v0) = Cert.ReferenceIdeal.Read.val_main_v0 (F := F) (X m c) := by
  show StableHlo.after hostOps0 (W0 m ρ c) (Proc.devRef .tc main_v0) = _
  after_results
  rfl

/-- The normalised rows, as the first kernel finds them: the reference's own quotient `x / max ‖x‖ cn`, rounded
    to a narrower format (the identity on extended reals). -/
theorem W2_v5 (c : Dev nD) : W2 m ρ c (Proc.devRef .tc main_v5)
    = truncf .bf16 (Cert.ReferenceIdeal.Read.val_main_v4 (F := F) (X m c)) bitsLt_bf16_f32 := by
  show StableHlo.after hostOps0_1 (W1 m ρ c) (Proc.devRef .tc main_v5) = _
  have h0 := W1_arg0 m ρ c
  have h1 := W1_v0 m ρ c
  generalize W1 m ρ c = W' at h0 h1 ⊢
  after_results
  rw [h0, h1]
  rfl

/-- The rows themselves in the narrower format. -/
theorem W2_v6 (c : Dev nD) : W2 m ρ c (Proc.devRef .tc main_v6) = truncf .bf16 (X m c) bitsLt_bf16_f32 := by
  show StableHlo.after hostOps0_1 (W1 m ρ c) (Proc.devRef .tc main_v6) = _
  have h0 := W1_arg0 m ρ c
  generalize W1 m ρ c = W' at h0 ⊢
  after_results
  rw [h0]

theorem W2_arg0 (c : Dev nD) : W2 m ρ c (Proc.devRef .tc main_arg0) = X m c := by
  show StableHlo.after hostOps0_1 (W1 m ρ c) (Proc.devRef .tc main_arg0) = _
  have h0 := W1_arg0 m ρ c
  generalize W1 m ρ c = W' at h0 ⊢
  after_results
  exact h0

theorem W2_arg1 (c : Dev nD) : W2 m ρ c (Proc.devRef .tc main_arg1) = Gm m c := by
  show StableHlo.after hostOps0_1 (W1 m ρ c) (Proc.devRef .tc main_arg1) = _
  have h0 := W1_arg1 m ρ c
  generalize W1 m ρ c = W' at h0 ⊢
  after_results
  exact h0

theorem W2_arg2 (c : Dev nD) : W2 m ρ c (Proc.devRef .tc main_arg2) = Bm m c := by
  show StableHlo.after hostOps0_1 (W1 m ρ c) (Proc.devRef .tc main_arg2) = _
  have h0 := W1_arg2 m ρ c
  generalize W1 m ρ c = W' at h0 ⊢
  after_results
  exact h0

/-! ## After the first region: its inputs as entered, its outputs at what the write-backs leave -/

theorem W3_v5 (c : Dev nD) : W3 m ρ c (Proc.devRef .tc main_v5) = W2 m ρ c (Proc.devRef .tc main_v5) :=
  (W3_arr m ρ c 0).trans (((dat0 (V2 m ρ) c).arrAt_in 0 rfl _).trans (A_eq0 (V2 m ρ) c 0))

theorem W3_v6 (c : Dev nD) : W3 m ρ c (Proc.devRef .tc main_v6) = W2 m ρ c (Proc.devRef .tc main_v6) :=
  (W3_arr m ρ c 1).trans (((dat0 (V2 m ρ) c).arrAt_in 1 rfl _).trans (A_eq0 (V2 m ρ) c 1))

theorem W3_orow (c : Dev nD) : W3 m ρ c (Proc.devRef .tc main_v7_0) = (dat0 (V2 m ρ) c).arrAt 2 cfg0.N := W3_arr m ρ c 2

theorem W3_lse (c : Dev nD) : W3 m ρ c (Proc.devRef .tc main_v7_1) = (dat0 (V2 m ρ) c).arrAt 3 cfg0.N := W3_arr m ρ c 3

theorem W3_arg0 (c : Dev nD) : W3 m ρ c (Proc.devRef .tc main_arg0) = X m c :=
  (W3_of_ne m ρ c main_arg0 (by decide)).trans (W2_arg0 m ρ c)

theorem W3_arg1 (c : Dev nD) : W3 m ρ c (Proc.devRef .tc main_arg1) = Gm m c :=
  (W3_of_ne m ρ c main_arg1 (by decide)).trans (W2_arg1 m ρ c)

theorem W3_arg2 (c : Dev nD) : W3 m ρ c (Proc.devRef .tc main_arg2) = Bm m c :=
  (W3_of_ne m ρ c main_arg2 (by decide)).trans (W2_arg2 m ρ c)

/-! ## After the stretch between the regions: the second region's seven input arrays -/

theorem W4_v5 (c : Dev nD) : W4 m ρ c (Proc.devRef .tc main_v5)
    = truncf .bf16 (Cert.ReferenceIdeal.Read.val_main_v4 (F := F) (X m c)) bitsLt_bf16_f32 := by
  show StableHlo.after hostOps1 (W3 m ρ c) (Proc.devRef .tc main_v5) = _
  have h0 := (W3_v5 m ρ c).trans (W2_v5 m ρ c)
  generalize W3 m ρ c = W' at h0 ⊢
  after_results
  exact h0

theorem W4_v6 (c : Dev nD) : W4 m ρ c (Proc.devRef .tc main_v6) = truncf .bf16 (X m c) bitsLt_bf16_f32 := by
  show StableHlo.after hostOps1 (W3 m ρ c) (Proc.devRef .tc main_v6) = _
  have h0 := (W3_v6 m ρ c).trans (W2_v6 m ρ c)
  generalize W3 m ρ c = W' at h0 ⊢
  after_results
  exact h0

theorem W4_arg0 (c : Dev nD) : W4 m ρ c (Proc.devRef .tc main_arg0) = X m c := by
  show StableHlo.after hostOps1 (W3 m ρ c) (Proc.devRef .tc main_arg0) = _
  have h0 := W3_arg0 m ρ c
  generalize W3 m ρ c = W' at h0 ⊢
  after_results
  exact h0

theorem W4_orow (c : Dev nD) : W4 m ρ c (Proc.devRef .tc main_v7_0) = (dat0 (V2 m ρ) c).arrAt 2 cfg0.N := by
  show StableHlo.after hostOps1 (W3 m ρ c) (Proc.devRef .tc main_v7_0) = _
  have h0 := W3_orow m ρ c
  generalize W3 m ρ c = W' at h0 ⊢
  after_results
  exact h0

/-- The log-sum-exp column laid out as a row. -/
theorem W4_v8 (c : Dev nD) : W4 m ρ c (Proc.devRef .tc main_v8)
    = transpose S1x8192 [1, 0] ((dat0 (V2 m ρ) c).arrAt 3 cfg0.N) transposes_S8192x1_S1x8192_1_0 := by
  show StableHlo.after hostOps1 (W3 m ρ c) (Proc.devRef .tc main_v8) = _
  have h0 := W3_lse m ρ c
  generalize W3 m ρ c = W' at h0 ⊢
  after_results
  rw [h0]

/-- The scale and the shift as rows `[1, 512]`. -/
theorem W4_v9 (c : Dev nD) : W4 m ρ c (Proc.devRef .tc main_v9)
    = shapeCast S1x512 (Gm m c) shapeCasts_S512_S1x512 := by
  show StableHlo.after hostOps1 (W3 m ρ c) (Proc.devRef .tc main_v9) = _
  have h0 := W3_arg1 m ρ c
  generalize W3 m ρ c = W' at h0 ⊢
  after_results
  rw [h0]
  rfl

theorem W4_v10 (c : Dev nD) : W4 m ρ c (Proc.devRef .tc main_v10)
    = shapeCast S1x512 (Bm m c) shapeCasts_S512_S1x512 := by
  show StableHlo.after hostOps1 (W3 m ρ c) (Proc.devRef .tc main_v10) = _
  have h0 := W3_arg2 m ρ c
  generalize W3 m ρ c = W' at h0 ⊢
  after_results
  rw [h0]
  rfl

end Cert.KernelIdeal.Glue
end
-- ==== Proof.Spec.lean ====
/-
  The mathematics of this certificate, stated once over abstract finite index types (rows `ι`, features `κ`),
  on the extended reals, with the programs' own primitive operations.

  Rows are L2-normalised, `q r = x r / max ‖x r‖ cn`, and `sim q r k = ∑ d, q r d * q k d` is their Gram matrix.

  The kernel's form.  With a FIXED shift `o`:  `e r k = exp (sim r k - o)`,  `l r = ∑ k, e r k`,
  `orow r = (∑ k, e r k * v k) / l r`  (row-softmax times `v`),  `lse r = o + log (l r)`,
  `ocolL lsev j = ∑ i, exp (sim j i - lsev i) * v i`  (the transposed row-softmax times `v`, rebuilt from a
  log-sum-exp vector), and  `y = x - c * (orow + ocol)`.

  The reference's form.  `simT = sim / o`; with shifts `mr` (per row) and `mc` (per column):
  `R r k = exp (simT r k - mr r) / ∑ k', exp (simT r k' - mr r)`,
  `C r k = exp (simT r k - mc k) / ∑ r', exp (simT r' k - mc k)`, and  `y = x - c * ∑ k, (R + C) j k * x k`.

  Both end in the same layer normalisation `LN` of `y` over the feature axis, scaled by `g` and shifted by `b`.
-/
import Idealize.ShloMosaic.PureOps.Ideal
import Mathlib.Algebra.BigOperators.Fin

noncomputable section

namespace Cert.Spec

open Idealize.ShloMosaic

variable {ι κ : Type} [Fintype ι] [Fintype κ]

/-- Row normalisation: `x r d / max (sqrt (∑ d', x r d' * x r d')) cn`. -/
def xn (cn : EReal) (x : ι → κ → EReal) (r : ι) (d : κ) : EReal :=
  Ideal.div (x r d) (max (Ideal.sqrt (∑ d', x r d' * x r d')) cn)

/-- The Gram matrix of the rows of `q`. -/
def sim (q : ι → κ → EReal) (r k : ι) : EReal := ∑ d, q r d * q k d

/-! ## The kernel's form -/

/-- `exp (sim r k - o)`: the unnormalised row-softmax weight at the fixed shift `o`. -/
def e (o : EReal) (q : ι → κ → EReal) (r k : ι) : EReal := Ideal.exp (sim q r k - o)

/-- The row's normaliser `∑ k, e r k`. -/
def l (o : EReal) (q : ι → κ → EReal) (r : ι) : EReal := ∑ k, e o q r k

/-- Row-softmax times `v`: `(∑ k, e r k * v k d) / l r`. -/
def orow (o : EReal) (q v : ι → κ → EReal) (r : ι) (d : κ) : EReal :=
  Ideal.div (∑ k, e o q r k * v k d) (l o q r)

/-- The row's log-sum-exp, `o + log (l r)`. -/
def lse (o : EReal) (q : ι → κ → EReal) (r : ι) : EReal := o + Ideal.log (l o q r)

/-- The transposed row-softmax times `v`, rebuilt from a log-sum-exp vector `lsev`:
    `∑ i, exp (sim j i - lsev i) * v i d`. -/
def ocolL (q v : ι → κ → EReal) (lsev : ι → EReal) (j : ι) (d : κ) : EReal :=
  ∑ i, Ideal.exp (sim q j i - lsev i) * v i d

/-- The kernel's residual: `x - c * (orow + ocolL lse)`. -/
def yK (o c : EReal) (q v x : ι → κ → EReal) (j : ι) (d : κ) : EReal :=
  x j d - c * (orow o q v j d + ocolL q v (lse o q) j d)

/-! ## The reference's form -/

/-- The Gram matrix over the temperature `o`. -/
def simT (o : EReal) (q : ι → κ → EReal) (r k : ι) : EReal := Ideal.div (sim q r k) o

/-- Row softmax at the shift `mr r`. -/
def R (o : EReal) (q : ι → κ → EReal) (mr : ι → EReal) (r k : ι) : EReal :=
  Ideal.div (Ideal.exp (simT o q r k - mr r)) (∑ k', Ideal.exp (simT o q r k' - mr r))

/-- Column softmax at the shift `mc k`. -/
def C (o : EReal) (q : ι → κ → EReal) (mc : ι → EReal) (r k : ι) : EReal :=
  Ideal.div (Ideal.exp (simT o q r k - mc k)) (∑ r', Ideal.exp (simT o q r' k - mc k))

/-- The reference's residual: `x - c * ∑ k, (R j k + C j k) * x k d`. -/
def yR (o c : EReal) (q x : ι → κ → EReal) (mr mc : ι → EReal) (j : ι) (d : κ) : EReal :=
  x j d - c * ∑ k, (R o q mr j k + C o q mc j k) * x k d

/-! ## The shared epilogue -/

/-- The mean of row `j` over the feature axis, `(∑ d, y j d) / n`. -/
def mean (n : EReal) (y : ι → κ → EReal) (j : ι) : EReal := Ideal.div (∑ d, y j d) n

/-- Layer normalisation of row `j` at feature `d`:
    `(y - mean) * rsqrt ((∑ d', (y - mean)²) / n + eps) * g d + b d`. -/
def LN (n eps : EReal) (y : ι → κ → EReal) (g b : κ → EReal) (j : ι) (d : κ) : EReal :=
  (y j d - mean n y j)
      * Ideal.rsqrt (Ideal.div (∑ d', (y j d' - mean n y j) * (y j d' - mean n y j)) n + eps)
      * g d + b d

/-- The kernel's whole result. -/
def outK (o c cn n eps : EReal) (x : ι → κ → EReal) (g b : κ → EReal) (j : ι) (d : κ) : EReal :=
  LN n eps (yK o c (xn cn x) x x) g b j d

/-- The reference's whole result, at given softmax shifts. -/
def outR (o c cn n eps : EReal) (x : ι → κ → EReal) (mr mc : ι → EReal) (g b : κ → EReal) (j : ι) (d : κ) : EReal :=
  LN n eps (yR o c (xn cn x) x mr mc) g b j d

end Cert.Spec

end
-- ==== Proof.RefValue.lean ====
/-
  The reference program, read one stage at a time at a row/feature index, is the specification's
  reference form `outR`: row normalisation, the Gram matrix over the temperature, the row and the
  column softmax (each at the shift the program itself computes), their sum times the input, the
  residual, and the layer normalisation.
-/
import proofs.«118167_j19035295056148_2_alg».proof.Proof.Spec
import proofs.«118167_j19035295056148_2_alg».proof.Proof.Gen.ReferenceIdeal.Read

noncomputable section

namespace Cert.RefValue

open Cert.ReferenceIdeal Cert.ReferenceIdeal.Read Idealize.ShloMosaic Idealize.ShloMosaic.ValueIdx

/-- Two rank-2 indices agree when both coordinates do. -/
theorem idx2_ext {n0 n1 : Nat} (i j : (⟨2, ![n0, n1]⟩ : Shape).Idx)
    (h0 : (i 0).val = (j 0).val) (h1 : (i 1).val = (j 1).val) : i = j :=
  funext fun a => Fin.ext (by match a with | ⟨0, _⟩ => exact h0 | ⟨1, _⟩ => exact h1)

/-- Two rank-1 indices agree when their coordinate does. -/
theorem idx1_ext {n0 : Nat} (i j : (⟨1, ![n0]⟩ : Shape).Idx) (h0 : (i 0).val = (j 0).val) : i = j :=
  funext fun a => Fin.ext (by match a with | ⟨0, _⟩ => exact h0)

/-- The input array as a function of its row and feature. -/
abbrev xf (x : FVec Ideal S8192x512 .f32) : Fin 8192 → Fin 512 → EReal := fun r d => x (ix2 r d)

/-- The floor of the row norm. -/
abbrev cnorm : EReal := Ideal.ofBits .f32 0x2B8CBCCC#32
/-- The temperature. -/
abbrev temp : EReal := Ideal.ofBits .f32 0x3F800000#32
/-- The residual's scale. -/
abbrev cres : EReal := Ideal.ofBits .f32 0x3DCCCCCD#32
/-- The feature count as a float. -/
abbrev nfeat : EReal := Ideal.ofBits .f32 0x44000000#32
/-- The variance's offset. -/
abbrev veps : EReal := Ideal.ofBits .f32 0x358637BD#32

/-- The normalised rows: operation 4 at `(r, d)` is `xn`. -/
theorem q_at (x : FVec Ideal S8192x512 .f32) (r : Fin 8192) (d : Fin 512) :
    val_main_v4 (F := Ideal) x (ix2 r d) = Spec.xn cnorm (xf x) r d := by
  rw [val_main_v4_apply, val_main_v3_apply, val_main_v2_apply, val_main_v0_apply, val_main_call0_v2_apply,
    val_main_call0_v1_apply, val_main_v1_apply, val_main_cst_apply, val_main_call0_cst_apply]
  simp only [Ideal.hostDivf_def, Ideal.maximumf_def, Ideal.hostUnary_sqrt_def, Ideal.ofBits_def,
    Ideal.ofBits_zero_f32, zero_add, val_main_call0_v0_apply, Ideal.mulf_def]
  unfold Spec.xn
  refine congrArg (Ideal.div _) (congrArg (max · _) (congrArg Ideal.sqrt (Finset.sum_congr rfl fun k _ => ?_)))
  have e : idx_main_call0_v1 (idx_main_call0_v2 (idx_main_v3 (ix2 r d))) k = ix2 r k := idx2_ext _ _ rfl rfl
  rw [e]

/-- The normalised rows as a function of row and feature. -/
abbrev qf (x : FVec Ideal S8192x512 .f32) : Fin 8192 → Fin 512 → EReal := Spec.xn cnorm (xf x)

/-- The Gram matrix: operation 6 at `(r, k)` is `sim` of the normalised rows. -/
theorem sim_at (x : FVec Ideal S8192x512 .f32) (r k : Fin 8192) :
    val_main_v6 (F := Ideal) x (ix2 r k) = Spec.sim (qf x) r k := by
  rw [val_main_v6_apply]
  unfold Spec.sim
  refine Finset.sum_congr rfl fun d _ => ?_
  rw [val_main_v5_apply]
  have el : lidx_main_v6 (ix2 r k) d = ix2 r d := idx2_ext _ _ rfl rfl
  have er : idx_main_v5 (ridx_main_v6 (ix2 r k) d) = ix2 k d := idx2_ext _ _ rfl rfl
  rw [el, er, q_at, q_at]

/-- The Gram matrix over the temperature: operation 8 at `(r, k)`. -/
theorem simT_at (x : FVec Ideal S8192x512 .f32) (r k : Fin 8192) :
    val_main_v8 (F := Ideal) x (ix2 r k) = Spec.simT temp (qf x) r k := by
  rw [val_main_v8_apply, val_main_v7_apply, val_main_cst_0_apply, sim_at]
  simp only [Ideal.hostDivf_def, Ideal.ofBits_def]
  rfl

/-- The row shift the program computes: operation 11 at row `r`. -/
def mr0 (x : FVec Ideal S8192x512 .f32) : Fin 8192 → EReal := fun r => val_main_v11 (F := Ideal) x (ix1 r)

/-- The column shift the program computes: operation 22 at column `k`. -/
def mc0 (x : FVec Ideal S8192x512 .f32) : Fin 8192 → EReal := fun k => val_main_v22 (F := Ideal) x (ix1 k)

/-- The row softmax's numerator: operation 15 at `(r, k)`. -/
theorem erow_at (x : FVec Ideal S8192x512 .f32) (r k : Fin 8192) :
    val_main_v15 (F := Ideal) x (ix2 r k) = Ideal.exp (Spec.simT temp (qf x) r k - mr0 x r) := by
  rw [val_main_v15_apply, val_main_v14_apply, val_main_v13_apply, val_main_v12_apply, simT_at]
  simp only [Ideal.hostUnary_exp_def, Ideal.subf_def]
  have e : idx_main_v12 (idx_main_v13 (ix2 r k)) = ix1 r := idx1_ext _ _ rfl
  rw [e]
  rfl

/-- The row softmax: operation 19 at `(r, k)` is `R` at the program's row shift. -/
theorem R_at (x : FVec Ideal S8192x512 .f32) (r k : Fin 8192) :
    val_main_v19 (F := Ideal) x (ix2 r k) = Spec.R temp (qf x) (mr0 x) r k := by
  rw [val_main_v19_apply, val_main_v18_apply, val_main_v17_apply, val_main_v16_apply, val_main_cst_3_apply, erow_at]
  simp only [Ideal.hostDivf_def, Ideal.ofBits_def, Ideal.ofBits_zero_f32, zero_add]
  unfold Spec.R
  refine congrArg (Ideal.div _) (Finset.sum_congr rfl fun k' _ => ?_)
  have e : idx_main_v16 (idx_main_v17 (idx_main_v18 (ix2 r k))) k' = ix2 r k' := idx2_ext _ _ rfl rfl
  rw [e, erow_at]

/-- The column softmax's numerator: operation 26 at `(r, k)`. -/
theorem ecol_at (x : FVec Ideal S8192x512 .f32) (r k : Fin 8192) :
    val_main_v26 (F := Ideal) x (ix2 r k) = Ideal.exp (Spec.simT temp (qf x) r k - mc0 x k) := by
  rw [val_main_v26_apply, val_main_v25_apply, val_main_v24_apply, val_main_v23_apply, simT_at]
  simp only [Ideal.hostUnary_exp_def, Ideal.subf_def]
  have e : idx_main_v23 (idx_main_v24 (ix2 r k)) = ix1 k := idx1_ext _ _ rfl
  rw [e]
  rfl

/-- The column softmax: operation 30 at `(r, k)` is `C` at the program's column shift. -/
theorem C_at (x : FVec Ideal S8192x512 .f32) (r k : Fin 8192) :
    val_main_v30 (F := Ideal) x (ix2 r k) = Spec.C temp (qf x) (mc0 x) r k := by
  rw [val_main_v30_apply, val_main_v29_apply, val_main_v28_apply, val_main_v27_apply, val_main_cst_6_apply, ecol_at]
  simp only [Ideal.hostDivf_def, Ideal.ofBits_def, Ideal.ofBits_zero_f32, zero_add]
  unfold Spec.C
  refine congrArg (Ideal.div _) (Finset.sum_congr rfl fun r' _ => ?_)
  have e : idx_main_v27 (idx_main_v28 (idx_main_v29 (ix2 r k))) r' = ix2 r' k := idx2_ext _ _ rfl rfl
  rw [e, ecol_at]

/-- The reference's residual as a function of row and feature. -/
abbrev yf (x : FVec Ideal S8192x512 .f32) : Fin 8192 → Fin 512 → EReal :=
  Spec.yR temp cres (qf x) (xf x) (mr0 x) (mc0 x)

/-- The residual: operation 35 at `(r, d)` is `yR`. -/
theorem y_at (x : FVec Ideal S8192x512 .f32) (r : Fin 8192) (d : Fin 512) :
    val_main_v35 (F := Ideal) x (ix2 r d) = yf x r d := by
  rw [val_main_v35_apply, val_main_v34_apply, val_main_v33_apply, val_main_cst_7_apply, val_main_v32_apply]
  simp only [Ideal.subf_def, Ideal.mulf_def, Ideal.ofBits_def]
  unfold yf Spec.yR
  refine congrArg (_ - ·) (congrArg (_ * ·) (Finset.sum_congr rfl fun k _ => ?_))
  have el : lidx_main_v32 (ix2 r d) k = ix2 r k := idx2_ext _ _ rfl rfl
  have er : ridx_main_v32 (ix2 r d) k = ix2 k d := idx2_ext _ _ rfl rfl
  rw [el, er, val_main_v31_apply, R_at, C_at]
  rfl

/-- The row mean of the residual: operation 39 at `(r, 0)`. -/
theorem mean_at (x : FVec Ideal S8192x512 .f32) (r : Fin 8192) :
    val_main_v39 (F := Ideal) x (ix2 r (0 : Fin 1)) = Spec.mean nfeat (yf x) r := by
  rw [val_main_v39_apply, val_main_v38_apply, val_main_cst_9_apply, val_main_v37_apply, val_main_v36_apply,
    val_main_cst_8_apply]
  simp only [Ideal.hostDivf_def, Ideal.ofBits_def, Ideal.ofBits_zero_f32, zero_add]
  unfold Spec.mean
  refine congrArg (Ideal.div · _) (Finset.sum_congr rfl fun d _ => ?_)
  have e : idx_main_v36 (idx_main_v37 (ix2 r (0 : Fin 1))) d = ix2 r d := idx2_ext _ _ rfl rfl
  rw [e, y_at]

/-- The centred residual as the variance reads it: operation 41 at `(r, d)`. -/
theorem cen_at (x : FVec Ideal S8192x512 .f32) (r : Fin 8192) (d : Fin 512) :
    val_main_v41 (F := Ideal) x (ix2 r d) = yf x r d - Spec.mean nfeat (yf x) r := by
  rw [val_main_v41_apply, val_main_v40_apply, y_at]
  have e : idx_main_v40 (ix2 r d) = ix2 r (0 : Fin 1) := idx2_ext _ _ rfl rfl
  rw [e, mean_at]
  rfl

/-- The centred residual as the result reads it: operation 48 at `(r, d)`. -/
theorem cen'_at (x : FVec Ideal S8192x512 .f32) (r : Fin 8192) (d : Fin 512) :
    val_main_v48 (F := Ideal) x (ix2 r d) = yf x r d - Spec.mean nfeat (yf x) r := by
  rw [val_main_v48_apply, val_main_v47_apply, y_at]
  have e : idx_main_v47 (ix2 r d) = ix2 r (0 : Fin 1) := idx2_ext _ _ rfl rfl
  rw [e, mean_at]
  rfl

/-- The row variance of the residual: operation 46 at `(r, 0)`. -/
theorem var_at (x : FVec Ideal S8192x512 .f32) (r : Fin 8192) :
    val_main_v46 (F := Ideal) x (ix2 r (0 : Fin 1))
      = Ideal.div (∑ d', (yf x r d' - Spec.mean nfeat (yf x) r) * (yf x r d' - Spec.mean nfeat (yf x) r)) nfeat := by
  rw [val_main_v46_apply, val_main_v45_apply, val_main_cst_11_apply, val_main_v44_apply, val_main_v43_apply,
    val_main_cst_10_apply]
  simp only [Ideal.hostDivf_def, Ideal.ofBits_def, Ideal.ofBits_zero_f32, zero_add]
  refine congrArg (Ideal.div · _) (Finset.sum_congr rfl fun d _ => ?_)
  have e : idx_main_v43 (idx_main_v44 (ix2 r (0 : Fin 1))) d = ix2 r d := idx2_ext _ _ rfl rfl
  rw [e, val_main_v42_apply, cen_at]
  rfl

/-- The whole reference at `(r, d)`: the layer normalisation of the residual. -/
theorem out_at (x : FVec Ideal S8192x512 .f32) (g b : FVec Ideal S512 .f32) (r : Fin 8192) (d : Fin 512) :
    val_main_v59 (F := Ideal) x g b (ix2 r d)
      = Spec.LN nfeat veps (yf x) (fun d => g (ix1 d)) (fun d => b (ix1 d)) r d := by
  rw [val_main_v59_apply, val_main_v58_apply, val_main_v57_apply, val_main_v56_apply, val_main_v55_apply,
    val_main_v54_apply, val_main_v53_apply, val_main_v52_apply, val_main_v51_apply, val_main_v50_apply,
    val_main_v49_apply, val_main_cst_12_apply, cen'_at]
  have e52 : idx_main_v52 (ix2 r d) = ix2 r (0 : Fin 1) := idx2_ext _ _ rfl rfl
  have e55 : idx_main_v54 (idx_main_v55 (ix2 r d)) = ix1 d := idx1_ext _ _ rfl
  have e58 : idx_main_v57 (idx_main_v58 (ix2 r d)) = ix1 d := idx1_ext _ _ rfl
  rw [e52, e55, e58, var_at]
  simp only [Ideal.addf_def, Ideal.mulf_def, Ideal.hostUnary_rsqrt_def, Ideal.ofBits_def]
  rfl

/-- The reference program's result at `(r, d)` is the specification's reference form at the shifts the
    program computes. -/
theorem ref_eq_outR (x : FVec Ideal S8192x512 .f32) (g b : FVec Ideal S512 .f32) (r : Fin 8192) (d : Fin 512) :
    Cert.ReferenceIdeal.Read.val_main_v59 (F := Ideal) x g b (ValueIdx.ix2 r d)
      = Cert.Spec.outR (Ideal.ofBits .f32 0x3F800000#32) (Ideal.ofBits .f32 0x3DCCCCCD#32)
          (Ideal.ofBits .f32 0x2B8CBCCC#32) (Ideal.ofBits .f32 0x44000000#32) (Ideal.ofBits .f32 0x358637BD#32)
          (fun r d => x (ValueIdx.ix2 r d)) (mr0 x) (mc0 x) (fun d => g (ValueIdx.ix1 d))
          (fun d => b (ValueIdx.ix1 d)) r d :=
  out_at x g b r d

end Cert.RefValue

end
-- ==== Proof.LibLogSumExp.lean ====
/-
  The shift law of the logarithm of a sum of exponentials over the reals, and the passage between real
  arithmetic and the arithmetic of the extended reals at real arguments.

  For a finite nonempty family of reals `l` and any real `M`,
  `log (∑ exp (l j - M)) = log (∑ exp (l j)) - M`: subtracting a common shift before exponentiating divides the
  sum by `exp M`, which the logarithm turns back into the subtraction of `M`.  So a log-softmax entry does not
  depend on the shift.  On the extended reals the exact operations (square root, exponential, logarithm,
  division, maximum, finite sums) send real arguments in their domains to the coercions of the real results;
  the lemmas of the second half say so one operation at a time.
-/
import Idealize.ShloMosaic.PureOps.Ideal

noncomputable section

namespace Cert.LogSumExp

open Idealize.ShloMosaic

variable {ι : Type*} [Fintype ι]

/-! ## The reals -/

/-- A finite nonempty sum of exponentials is positive. -/
theorem sum_exp_pos [Nonempty ι] (l : ι → ℝ) : 0 < ∑ j, Real.exp (l j) :=
  Finset.sum_pos (fun j _ => Real.exp_pos (l j)) Finset.univ_nonempty

/-- Shifting every exponent by `M` shifts the logarithm of the sum of exponentials by `M`. -/
theorem log_sum_exp_sub [Nonempty ι] (l : ι → ℝ) (M : ℝ) :
    Real.log (∑ j, Real.exp (l j - M)) = Real.log (∑ j, Real.exp (l j)) - M := by
  have h : ∑ j, Real.exp (l j - M) = (∑ j, Real.exp (l j)) * Real.exp (-M) := by
    rw [Finset.sum_mul]
    refine Finset.sum_congr rfl fun j _ => ?_
    rw [sub_eq_add_neg, Real.exp_add]
  rw [h, Real.log_mul (sum_exp_pos l).ne' (Real.exp_pos _).ne', Real.log_exp]
  ring

/-- The negated log-softmax entry at `i`, computed with any shift `M`, is the logarithm of the sum of the
    exponentials less the entry itself. -/
theorem neg_log_softmax [Nonempty ι] (l : ι → ℝ) (M : ℝ) (i : ι) :
    -((l i - M) - Real.log (∑ j, Real.exp (l j - M))) = Real.log (∑ j, Real.exp (l j)) - l i := by
  rw [log_sum_exp_sub]; ring

/-- The negated mean of a family is the mean of the negated family. -/
theorem neg_mean (f : ι → ℝ) (n : ℝ) : -((∑ i, f i) / n) = (∑ i, -f i) / n := by
  rw [Finset.sum_neg_distrib, neg_div]

/-- A sum of squares is not negative. -/
theorem sum_mul_self_nonneg (a : ι → ℝ) : 0 ≤ ∑ d, a d * a d :=
  Finset.sum_nonneg fun d _ => mul_self_nonneg (a d)

/-- A maximum against a positive number is positive. -/
theorem max_pos_of_right {x ε : ℝ} (h : 0 < ε) : 0 < max x ε := lt_max_of_lt_right h

/-! ## Real arguments inside the extended reals -/

/-- The coercion of a finite sum of reals is the sum of the coercions. -/
theorem coe_finset_sum {κ : Type*} (s : Finset κ) (f : κ → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- The exact square root at a real that is not negative. -/
theorem sqrt_coe_of_nonneg {r : ℝ} (h : 0 ≤ r) : Ideal.sqrt (r : EReal) = ((Real.sqrt r : ℝ) : EReal) := by
  rw [Ideal.sqrt_coe, if_neg (not_lt.mpr h)]

/-- The exact logarithm at a positive real. -/
theorem log_coe_of_pos {r : ℝ} (h : 0 < r) : Ideal.log (r : EReal) = ((Real.log r : ℝ) : EReal) := by
  rw [Ideal.log_coe, if_neg (not_le.mpr h)]

/-- The exact exponential at a real. -/
theorem exp_coe (r : ℝ) : Ideal.exp (r : EReal) = ((Real.exp r : ℝ) : EReal) := rfl

/-- The exact quotient of two reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The maximum of two reals. -/
theorem max_coe_coe (x y : ℝ) : max (x : EReal) (y : EReal) = ((max x y : ℝ) : EReal) :=
  (EReal.coe_strictMono.monotone.map_max (a := x) (b := y)).symm

/-- From the bottom element, the running maximum over a finite nonempty family of reals is a real. -/
theorem fold_max_bot_coe {κ : Type*} (s : Finset κ) (hs : s.Nonempty) (g : κ → ℝ) :
    ∃ M : ℝ, s.fold max (⊥ : EReal) (fun k => ((g k : ℝ) : EReal)) = (M : EReal) := by
  classical
  have key : ∀ t : Finset κ, (t = ∅ ∧ t.fold max (⊥ : EReal) (fun k => ((g k : ℝ) : EReal)) = ⊥)
      ∨ ∃ M : ℝ, t.fold max (⊥ : EReal) (fun k => ((g k : ℝ) : EReal)) = (M : EReal) := by
    intro t
    refine Finset.induction_on t (Or.inl ⟨rfl, Finset.fold_empty⟩) ?_
    intro a t ha ih
    right
    rw [Finset.fold_insert ha]
    rcases ih with ⟨_, h⟩ | ⟨M, h⟩
    · exact ⟨g a, by rw [h, max_bot_right]⟩
    · exact ⟨max (g a) M, by rw [h, max_coe_coe]⟩
  rcases key s with ⟨h, _⟩ | h
  · exact absurd h hs.ne_empty
  · exact h

/-- One log-softmax entry computed in the extended reals from real logits `l` with a real shift `M`: every
    intermediate is the coercion of the real one. -/
theorem log_softmax_coe [Nonempty ι] (l : ι → ℝ) (M : ℝ) (i : ι) :
    ((l i : ℝ) : EReal) - (M : EReal) - Ideal.log (∑ j, Ideal.exp (((l j : ℝ) : EReal) - (M : EReal)))
      = (((l i - M) - Real.log (∑ j, Real.exp (l j - M)) : ℝ) : EReal) := by
  have h : ∀ j, Ideal.exp (((l j : ℝ) : EReal) - (M : EReal)) = ((Real.exp (l j - M) : ℝ) : EReal) := fun j => by
    rw [← EReal.coe_sub]; rfl
  simp only [h]
  rw [← coe_finset_sum, log_coe_of_pos (sum_exp_pos _), ← EReal.coe_sub, ← EReal.coe_sub]

/-- The negated exact quotient of a real by a real that is not zero. -/
theorem neg_div_coe_coe (x : ℝ) {y : ℝ} (h : y ≠ 0) : -Ideal.div (x : EReal) (y : EReal) = ((-(x / y) : ℝ) : EReal) := by
  rw [div_coe_coe x h, ← EReal.coe_neg]

end Cert.LogSumExp

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.SpecAlgebra.lean ====
/-
  The real algebra behind the certificate: at real data the kernel's residual and the reference's residual are the
  same extended real.

  Write `s r k = ∑ d, q r d * q k d` for the Gram matrix of real rows `q` (symmetric, because multiplication
  commutes), `E r k = exp (s r k - 1)` for its exponential at the shift one (positive), and `L r = ∑ k, E r k`
  for the row sums (positive when there is at least one row).

  The kernel adds the row-softmax average `(∑ k, E j k * x k) / L j` to a column term rebuilt from the logarithm
  of the row sums: `exp (s j i - (1 + log (L i))) = E j i / L i`.  The reference computes a row softmax and a
  column softmax, each at its own shift; a softmax does not see a real shift, since
  `exp (s - m) = exp (s - 1) * exp (1 - m)` and the second factor cancels between numerator and denominator.  So
  the row softmax is `E j k / L j`, and the column softmax is `E j k / ∑ r, E r k = E j k / L k` by the
  symmetry of `s`.  Summing `(E j k / L j + E j k / L k) * x k` over `k` gives the kernel's two terms.

  The distributive law and cancellation fail on the extended reals at the infinities, so every quantity is first
  shown to be the image of a real number, and the algebra is done in the reals.
-/
import proofs.«118167_j19035295056148_2_alg».proof.Proof.Spec
import proofs.«118167_j19035295056148_2_alg».proof.Proof.LibLogSumExp
import proofs.«118167_j19035295056148_2_alg».proof.Proof.LibRealImage

noncomputable section

namespace Cert.SpecAlgebra

open Idealize.ShloMosaic
open Cert.LogSumExp

variable {ι κ : Type} [Fintype ι] [Fintype κ]

/-! ## The real quantities -/

/-- The Gram matrix of real rows. -/
def gram (qr : ι → κ → ℝ) (r k : ι) : ℝ := ∑ d, qr r d * qr k d

/-- The exponential of the Gram matrix at the shift one. -/
def expGram (qr : ι → κ → ℝ) (r k : ι) : ℝ := Real.exp (gram qr r k - 1)

/-- The row sums of the exponentials. -/
def rowSum (qr : ι → κ → ℝ) (r : ι) : ℝ := ∑ k, expGram qr r k

theorem gram_symm (qr : ι → κ → ℝ) (r k : ι) : gram qr r k = gram qr k r :=
  Finset.sum_congr rfl fun _ _ => mul_comm _ _

theorem expGram_symm (qr : ι → κ → ℝ) (r k : ι) : expGram qr r k = expGram qr k r := by
  unfold expGram; rw [gram_symm]

theorem expGram_pos (qr : ι → κ → ℝ) (r k : ι) : 0 < expGram qr r k := Real.exp_pos _

theorem rowSum_pos [Nonempty ι] (qr : ι → κ → ℝ) (r : ι) : 0 < rowSum qr r :=
  Finset.sum_pos (fun k _ => expGram_pos qr r k) Finset.univ_nonempty

/-- The column sums of the exponentials are the row sums, by symmetry. -/
theorem colSum_eq_rowSum (qr : ι → κ → ℝ) (k : ι) : ∑ r, expGram qr r k = rowSum qr k :=
  Finset.sum_congr rfl fun r _ => expGram_symm qr r k

/-- A shifted exponential is the exponential at the shift one times a factor that depends on the shift only. -/
theorem exp_gram_sub (qr : ι → κ → ℝ) (r k : ι) (m : ℝ) :
    Real.exp (gram qr r k - m) = expGram qr r k * Real.exp (1 - m) := by
  unfold expGram; rw [← Real.exp_add]; congr 1; ring

/-- The exponential rebuilt from the logarithm of the row sum. -/
theorem exp_gram_sub_lse [Nonempty ι] (qr : ι → κ → ℝ) (j i : ι) :
    Real.exp (gram qr j i - (1 + Real.log (rowSum qr i))) = expGram qr j i / rowSum qr i := by
  unfold expGram
  rw [show gram qr j i - (1 + Real.log (rowSum qr i)) = (gram qr j i - 1) - Real.log (rowSum qr i) by ring,
    Real.exp_sub, Real.exp_log (rowSum_pos qr i)]

/-- The row softmax at any real shift. -/
theorem row_softmax [Nonempty ι] (qr : ι → κ → ℝ) (j k : ι) (m : ℝ) :
    Real.exp (gram qr j k - m) / ∑ k', Real.exp (gram qr j k' - m) = expGram qr j k / rowSum qr j := by
  have hs : ∑ k', Real.exp (gram qr j k' - m) = rowSum qr j * Real.exp (1 - m) := by
    unfold rowSum; rw [Finset.sum_mul]; exact Finset.sum_congr rfl fun k' _ => exp_gram_sub qr j k' m
  rw [hs, exp_gram_sub, mul_div_mul_right _ _ (Real.exp_pos _).ne']

/-- The column softmax at any real shift. -/
theorem col_softmax [Nonempty ι] (qr : ι → κ → ℝ) (j k : ι) (m : ℝ) :
    Real.exp (gram qr j k - m) / ∑ r', Real.exp (gram qr r' k - m) = expGram qr j k / rowSum qr k := by
  have hs : ∑ r', Real.exp (gram qr r' k - m) = rowSum qr k * Real.exp (1 - m) := by
    rw [← colSum_eq_rowSum, Finset.sum_mul]; exact Finset.sum_congr rfl fun r' _ => exp_gram_sub qr r' k m
  rw [hs, exp_gram_sub, mul_div_mul_right _ _ (Real.exp_pos _).ne']

/-- The two forms of the mixing term agree in the reals. -/
theorem mix_real (qr xr : ι → κ → ℝ) (j : ι) (d : κ) :
    (∑ k, expGram qr j k * xr k d) / rowSum qr j + ∑ i, expGram qr j i / rowSum qr i * xr i d
      = ∑ k, (expGram qr j k / rowSum qr j + expGram qr j k / rowSum qr k) * xr k d := by
  rw [Finset.sum_div, ← Finset.sum_add_distrib]
  exact Finset.sum_congr rfl fun k _ => by ring

/-! ## Every quantity of the specification is the image of a real -/

/-- A sum of products of images of reals is the image of the real sum of products. -/
theorem sum_coe_mul_coe {α : Type} [Fintype α] (a b : α → ℝ) :
    ∑ k, (a k : EReal) * (b k : EReal) = ((∑ k, a k * b k : ℝ) : EReal) := by
  rw [coe_finset_sum]; exact Finset.sum_congr rfl fun k _ => (EReal.coe_mul _ _).symm

theorem sim_coe (qr : ι → κ → ℝ) (r k : ι) :
    Cert.Spec.sim (fun r d => (qr r d : EReal)) r k = (gram qr r k : EReal) :=
  sum_coe_mul_coe (fun d => qr r d) (fun d => qr k d)

theorem e_coe (qr : ι → κ → ℝ) (r k : ι) :
    Cert.Spec.e 1 (fun r d => (qr r d : EReal)) r k = (expGram qr r k : EReal) := by
  unfold Cert.Spec.e expGram
  rw [sim_coe, ← EReal.coe_one, ← EReal.coe_sub]; rfl

theorem l_coe (qr : ι → κ → ℝ) (r : ι) :
    Cert.Spec.l 1 (fun r d => (qr r d : EReal)) r = (rowSum qr r : EReal) := by
  unfold Cert.Spec.l rowSum
  rw [coe_finset_sum]; exact Finset.sum_congr rfl fun k _ => e_coe qr r k

theorem orow_coe [Nonempty ι] (qr xr : ι → κ → ℝ) (j : ι) (d : κ) :
    Cert.Spec.orow 1 (fun r d => (qr r d : EReal)) (fun r d => (xr r d : EReal)) j d
      = (((∑ k, expGram qr j k * xr k d) / rowSum qr j : ℝ) : EReal) := by
  unfold Cert.Spec.orow
  have hnum : ∑ k, Cert.Spec.e 1 (fun r d => (qr r d : EReal)) j k * (fun r d => (xr r d : EReal)) k d
      = ((∑ k, expGram qr j k * xr k d : ℝ) : EReal) := by
    rw [← sum_coe_mul_coe]; exact Finset.sum_congr rfl fun k _ => by rw [e_coe]
  rw [hnum, l_coe, div_coe_coe _ (rowSum_pos qr j).ne']

theorem lse_coe [Nonempty ι] (qr : ι → κ → ℝ) (r : ι) :
    Cert.Spec.lse 1 (fun r d => (qr r d : EReal)) r = ((1 + Real.log (rowSum qr r) : ℝ) : EReal) := by
  unfold Cert.Spec.lse
  rw [l_coe, log_coe_of_pos (rowSum_pos qr r), EReal.coe_add, EReal.coe_one]

theorem ocolL_coe [Nonempty ι] (qr xr : ι → κ → ℝ) (j : ι) (d : κ) :
    Cert.Spec.ocolL (fun r d => (qr r d : EReal)) (fun r d => (xr r d : EReal))
        (Cert.Spec.lse 1 (fun r d => (qr r d : EReal))) j d
      = ((∑ i, expGram qr j i / rowSum qr i * xr i d : ℝ) : EReal) := by
  unfold Cert.Spec.ocolL
  rw [← sum_coe_mul_coe]
  refine Finset.sum_congr rfl fun i _ => ?_
  rw [sim_coe, lse_coe, ← EReal.coe_sub, exp_coe, exp_gram_sub_lse]

theorem simT_coe (qr : ι → κ → ℝ) (r k : ι) :
    Cert.Spec.simT 1 (fun r d => (qr r d : EReal)) r k = (gram qr r k : EReal) := by
  unfold Cert.Spec.simT
  rw [sim_coe, ← EReal.coe_one, div_coe_coe _ one_ne_zero, div_one]

theorem R_coe [Nonempty ι] (qr : ι → κ → ℝ) (mr : ι → ℝ) (j k : ι) :
    Cert.Spec.R 1 (fun r d => (qr r d : EReal)) (fun r => (mr r : EReal)) j k
      = ((expGram qr j k / rowSum qr j : ℝ) : EReal) := by
  unfold Cert.Spec.R
  have hterm : ∀ k', Ideal.exp (Cert.Spec.simT 1 (fun r d => (qr r d : EReal)) j k' - (fun r => (mr r : EReal)) j)
      = ((Real.exp (gram qr j k' - mr j) : ℝ) : EReal) := fun k' => by
    rw [simT_coe, ← EReal.coe_sub, exp_coe]
  have hden : ∑ k', Ideal.exp (Cert.Spec.simT 1 (fun r d => (qr r d : EReal)) j k' - (fun r => (mr r : EReal)) j)
      = ((∑ k', Real.exp (gram qr j k' - mr j) : ℝ) : EReal) := by
    rw [coe_finset_sum]; exact Finset.sum_congr rfl fun k' _ => hterm k'
  rw [hterm, hden, div_coe_coe _ (sum_exp_pos _).ne', row_softmax]

theorem C_coe [Nonempty ι] (qr : ι → κ → ℝ) (mc : ι → ℝ) (j k : ι) :
    Cert.Spec.C 1 (fun r d => (qr r d : EReal)) (fun r => (mc r : EReal)) j k
      = ((expGram qr j k / rowSum qr k : ℝ) : EReal) := by
  unfold Cert.Spec.C
  have hterm : ∀ r', Ideal.exp (Cert.Spec.simT 1 (fun r d => (qr r d : EReal)) r' k - (fun r => (mc r : EReal)) k)
      = ((Real.exp (gram qr r' k - mc k) : ℝ) : EReal) := fun r' => by
    rw [simT_coe, ← EReal.coe_sub, exp_coe]
  have hden : ∑ r', Ideal.exp (Cert.Spec.simT 1 (fun r d => (qr r d : EReal)) r' k - (fun r => (mc r : EReal)) k)
      = ((∑ r', Real.exp (gram qr r' k - mc k) : ℝ) : EReal) := by
    rw [coe_finset_sum]; exact Finset.sum_congr rfl fun r' _ => hterm r'
  rw [hterm, hden, div_coe_coe _ (sum_exp_pos _).ne', col_softmax]

/-! ## The residuals agree -/

/-- The kernel's mixing term, `orow + ocolL lse`, and the reference's, `∑ k, (R + C) j k * x k d`, are the same
    extended real; so are the residuals, whatever the factor `c`. -/
theorem yK_eq_yR [Nonempty ι] (c : EReal) (qr xr : ι → κ → ℝ) (mr mc : ι → ℝ) (j : ι) (d : κ) :
    Cert.Spec.yK 1 c (fun r d => (qr r d : EReal)) (fun r d => (xr r d : EReal)) (fun r d => (xr r d : EReal)) j d
      = Cert.Spec.yR 1 c (fun r d => (qr r d : EReal)) (fun r d => (xr r d : EReal)) (fun r => (mr r : EReal))
          (fun k => (mc k : EReal)) j d := by
  unfold Cert.Spec.yK Cert.Spec.yR
  have hR : ∑ k, (Cert.Spec.R 1 (fun r d => (qr r d : EReal)) (fun r => (mr r : EReal)) j k
        + Cert.Spec.C 1 (fun r d => (qr r d : EReal)) (fun k => (mc k : EReal)) j k) * (fun r d => (xr r d : EReal)) k d
      = ((∑ k, (expGram qr j k / rowSum qr j + expGram qr j k / rowSum qr k) * xr k d : ℝ) : EReal) := by
    rw [← sum_coe_mul_coe]
    refine Finset.sum_congr rfl fun k _ => ?_
    rw [R_coe, C_coe, EReal.coe_add]
  rw [hR, orow_coe, ocolL_coe, ← EReal.coe_add, mix_real]

/-! ## The normalised rows are real -/

/-- Normalising real rows against a positive floor gives real rows: the sum of squares is not negative, its square
    root is the real square root, the maximum with a positive real is a positive real, and the quotient by a real
    that is not zero is the real quotient. -/
theorem xn_real (cn : ℝ) (hcn : 0 < cn) (xr : ι → κ → ℝ) :
    ∃ qr : ι → κ → ℝ, ∀ r d, Cert.Spec.xn (cn : EReal) (fun r d => (xr r d : EReal)) r d = (qr r d : EReal) := by
  refine ⟨fun r d => xr r d / max (Real.sqrt (∑ d', xr r d' * xr r d')) cn, fun r d => ?_⟩
  unfold Cert.Spec.xn
  have hsq : ∑ d', (fun r d => (xr r d : EReal)) r d' * (fun r d => (xr r d : EReal)) r d'
      = ((∑ d', xr r d' * xr r d' : ℝ) : EReal) := sum_coe_mul_coe (fun d' => xr r d') (fun d' => xr r d')
  rw [hsq, sqrt_coe_of_nonneg (sum_mul_self_nonneg _), max_coe_coe, div_coe_coe _ (max_pos_of_right hcn).ne']

/-! ## The results agree -/

/-- The kernel's whole result and the reference's whole result are the same extended real at real data: the
    residuals agree entry by entry, and both are followed by the same layer normalisation. -/
theorem outK_eq_outR [Nonempty ι] (c n eps : EReal) (cn : ℝ) (hcn : 0 < cn) (xr : ι → κ → ℝ) (mr mc : ι → ℝ)
    (g b : κ → EReal) (j : ι) (d : κ) :
    Cert.Spec.outK 1 c (cn : EReal) n eps (fun r d => (xr r d : EReal)) g b j d
      = Cert.Spec.outR 1 c (cn : EReal) n eps (fun r d => (xr r d : EReal)) (fun r => (mr r : EReal))
          (fun k => (mc k : EReal)) g b j d := by
  obtain ⟨qr, hqr⟩ := xn_real cn hcn xr
  have hq : Cert.Spec.xn (cn : EReal) (fun r d => (xr r d : EReal)) = fun r d => (qr r d : EReal) :=
    funext fun r => funext fun d => hqr r d
  have hy : Cert.Spec.yK 1 c (fun r d => (qr r d : EReal)) (fun r d => (xr r d : EReal)) (fun r d => (xr r d : EReal))
      = Cert.Spec.yR 1 c (fun r d => (qr r d : EReal)) (fun r d => (xr r d : EReal)) (fun r => (mr r : EReal))
          (fun k => (mc k : EReal)) :=
    funext fun j => funext fun d => yK_eq_yR c qr xr mr mc j d
  unfold Cert.Spec.outK Cert.Spec.outR
  rw [hq, hy]

end Cert.SpecAlgebra

end
-- ==== Proof.Consts.lean ====
/-
  The float literals of this certificate, as the extended reals their bit patterns denote when every float is an
  extended real.

  A 32-bit pattern has a sign bit, eight exponent bits `E` (bias 127) and twenty-three fraction bits `T`.  With
  `0 < E < 255` it denotes `±(2^23 + T) · 2^(E - 150)`; with `E = 255` and `T = 0` it denotes `±∞`.
  • `0x3F800000`: `E = 127`, `T = 0`, so `2^23 · 2^(-23) = 1`;
  • `0xFF800000`: sign set, `E = 255`, `T = 0`, so `-∞`;
  • `0x2B8CBCCC`: `E = 87`, `T = 834764`, so `9223372 · 2^(-63)`, the positive float nearest `10^(-12)`.
-/
import Idealize.ShloMosaic.PureOps.Ideal

noncomputable section

namespace Cert.Consts

open Idealize.ShloMosaic

/-- The pattern of `1.0` denotes one. -/
theorem ofBits_one : Ideal.ofBits .f32 0x3F800000#32 = (1 : EReal) := by
  simp [Ideal.ofBits, Ideal.ieee, -EReal.coe_mul]; norm_num

/-- The pattern of `-inf` denotes the bottom element. -/
theorem ofBits_neg_inf : Ideal.ofBits .f32 0xFF800000#32 = (⊥ : EReal) := by
  simp [Ideal.ofBits, Ideal.ieee]

/-- The value of the norm floor: `9223372 / 2^63`. -/
theorem ofBits_norm_eps_val : Ideal.ofBits .f32 0x2B8CBCCC#32 = (((9223372 : ℝ) / 2 ^ 63 : ℝ) : EReal) := by
  simp [Ideal.ofBits, Ideal.ieee, -EReal.coe_mul]; norm_num

/-- The norm floor is a positive real. -/
theorem ofBits_norm_eps : ∃ cn : ℝ, 0 < cn ∧ Ideal.ofBits .f32 0x2B8CBCCC#32 = (cn : EReal) :=
  ⟨(9223372 : ℝ) / 2 ^ 63, by positivity, ofBits_norm_eps_val⟩

end Cert.Consts

end
-- ==== Proof.LibRealClosure.lean ====
/-
  GENERAL LEMMAS: arrays of extended reals all of whose entries are (images of) reals stay so under the host
  operations that only move, multiply and add entries.
  • `sum_real`, `add_real`, `mul_real`: finite sums, sums and products of reals are real;
  • `scatterAdd_real`: an accumulating scatter of real updates into a real array is real, whatever the indices
    (each entry is the operand's entry plus a finite sum of update entries);
  • `mulf_real`, `gather_real`, `broadcastInDim_real`, `constant_zero_real`: an entrywise product, a gather, a
    broadcast of real arrays, and the zero scalar.
-/
import Idealize.ShloMosaic.PureOps.Ideal
import Idealize.ShloMosaic.PureOps.Ideal.Laws
import proofs.«118167_j19035295056148_2_alg».proof.Proof.LibRealImage

noncomputable section

open Idealize.ShloMosaic
open scoped BigOperators

namespace Cert.Lib.RealClosure

theorem sum_real {ι : Type*} (s : Finset ι) (f : ι → EReal) (hf : ∀ j, ∃ y : ℝ, f j = (y : EReal)) :
    ∃ y : ℝ, ∑ j ∈ s, f j = (y : EReal) := by
  choose f' hf' using hf
  exact ⟨∑ j ∈ s, f' j, by rw [Cert.Lib.RealImage.coe_sum]; exact Finset.sum_congr rfl fun j _ => hf' j⟩

theorem add_real (a b : EReal) (ha : ∃ y : ℝ, a = (y : EReal)) (hb : ∃ y : ℝ, b = (y : EReal)) : ∃ y : ℝ, a + b = (y : EReal) := by
  obtain ⟨a', rfl⟩ := ha; obtain ⟨b', rfl⟩ := hb; exact ⟨a' + b', (EReal.coe_add _ _).symm⟩

theorem mul_real (a b : EReal) (ha : ∃ y : ℝ, a = (y : EReal)) (hb : ∃ y : ℝ, b = (y : EReal)) : ∃ y : ℝ, a * b = (y : EReal) := by
  obtain ⟨a', rfl⟩ := ha; obtain ⟨b', rfl⟩ := hb; exact ⟨a' * b', (EReal.coe_mul _ _).symm⟩

/-- An accumulating scatter of real updates into a real array is real, whatever the indices. -/
theorem scatterAdd_real {s si su : Shape} (d : ScatterDims s si su) {w : ℕ} (x : FVec Ideal s .f32) (idx : IVec si w)
    (upd : FVec Ideal su .f32) (hx : ∀ i, ∃ y : ℝ, x i = (y : EReal)) (hu : ∀ j, ∃ y : ℝ, upd j = (y : EReal)) (i : s.Idx) :
    ∃ y : ℝ, Host.scatterAdd d x idx upd i = (y : EReal) := by
  simp only [Host.scatterAdd, Ideal.hostScatterAdd_def]
  unfold Ideal.hostScatterAdd
  exact add_real _ _ (hx i) (sum_real _ _ hu)

/-- A product of a gathered real array and a broadcast real array is real, entry by entry. -/
theorem mulf_real {s : Shape} (a b : FVec Ideal s .f32) (ha : ∀ j, ∃ y : ℝ, a j = (y : EReal)) (hb : ∀ j, ∃ y : ℝ, b j = (y : EReal))
    (j : s.Idx) : ∃ y : ℝ, mulf a b j = (y : EReal) :=
  mul_real _ _ (ha j) (hb j)

theorem gather_real {s si t : Shape} {w : ℕ} (d : GatherDims s si t) (x : FVec Ideal s .f32) (idx : IVec si w)
    (hx : ∀ i, ∃ y : ℝ, x i = (y : EReal)) (j : t.Idx) : ∃ y : ℝ, Host.gather d x idx j = (y : EReal) :=
  hx _

theorem broadcastInDim_real {s t : Shape} (dims : Fin s.rank → Fin t.rank) (h : s.BroadcastsInDim t dims) (x : FVec Ideal s .f32)
    (hx : ∀ i, ∃ y : ℝ, x i = (y : EReal)) (j : t.Idx) : ∃ y : ℝ, broadcastInDim t dims h x j = (y : EReal) :=
  hx _

theorem constant_zero_real (j : (⟨0, ![]⟩ : Shape).Idx) : ∃ y : ℝ, constant (F := Ideal) ⟨0, ![]⟩ .f32 0x00000000#32 j = (y : EReal) :=
  ⟨0, by show Ideal.ofBits .f32 0x00000000#32 = _; rw [Ideal.ofBits_zero_f32, EReal.coe_zero]⟩

end Cert.Lib.RealClosure

end
-- ==== Proof.RefValueShift.lean ====
/-
  The shifts the reference program subtracts before exponentiating are real numbers whenever the normalised rows
  are: the Gram matrix of real rows is real, so is its quotient by the temperature one, and the maximum of a
  nonempty finite family of reals, taken together with minus infinity, is one of them.
-/
import proofs.«118167_j19035295056148_2_alg».proof.Proof.RefValue
import proofs.«118167_j19035295056148_2_alg».proof.Proof.LibLogSumExp
import proofs.«118167_j19035295056148_2_alg».proof.Proof.LibRealClosure

noncomputable section

namespace Cert.RefValue

open Cert.ReferenceIdeal Cert.ReferenceIdeal.Gen Cert.ReferenceIdeal.Read Idealize.ShloMosaic Idealize.ShloMosaic.ValueIdx

/-- The word `0xFF800000` is minus infinity. -/
theorem neg_inf_lit : Ideal.ofBits .f32 0xFF800000#32 = (⊥ : EReal) := by simp [Ideal.ofBits, Ideal.ieee]

/-- The running maximum from minus infinity over a nonempty finite family of reals, taken once more with minus
    infinity, is a real. -/
theorem max_bot_fold_real {κ : Type} [Fintype κ] [Nonempty κ] (f : κ → EReal)
    (hf : ∀ k, ∃ y : ℝ, f k = (y : EReal)) :
    ∃ y : ℝ, max (⊥ : EReal) (Finset.univ.fold max (⊥ : EReal) f) = (y : EReal) := by
  choose g hg using hf
  obtain ⟨M, hM⟩ := Cert.LogSumExp.fold_max_bot_coe Finset.univ Finset.univ_nonempty g
  refine ⟨M, ?_⟩
  rw [show f = fun k => ((g k : ℝ) : EReal) from funext hg, hM]
  exact max_eq_right bot_le

/-- The Gram matrix of real rows is real. -/
theorem sim_real (q : Fin 8192 → Fin 512 → EReal) (hq : ∀ r d, ∃ y : ℝ, q r d = (y : EReal)) (r k : Fin 8192) :
    ∃ y : ℝ, Spec.sim q r k = (y : EReal) :=
  Cert.Lib.RealClosure.sum_real _ _ fun d => Cert.Lib.RealClosure.mul_real _ _ (hq r d) (hq k d)

/-- Over the temperature one it stays real. -/
theorem simT_real (q : Fin 8192 → Fin 512 → EReal) (hq : ∀ r d, ∃ y : ℝ, q r d = (y : EReal))
    (ho : Ideal.ofBits .f32 0x3F800000#32 = ((1 : ℝ) : EReal)) (r k : Fin 8192) :
    ∃ y : ℝ, Spec.simT (Ideal.ofBits .f32 0x3F800000#32) q r k = (y : EReal) := by
  obtain ⟨s, hs⟩ := sim_real q hq r k
  refine ⟨s / 1, ?_⟩
  unfold Spec.simT
  rw [hs, ho]
  exact Cert.LogSumExp.div_coe_coe s one_ne_zero

/-- Every entry of operation 8, the Gram matrix over the temperature, is real. -/
theorem v8_real (x : FVec Ideal S8192x512 .f32) (ho : Ideal.ofBits .f32 0x3F800000#32 = ((1 : ℝ) : EReal))
    (hq : ∀ r d, ∃ y : ℝ, Spec.xn (Ideal.ofBits .f32 0x2B8CBCCC#32) (fun r d => x (ix2 r d)) r d = (y : EReal))
    (i : S8192x8192.Idx) : ∃ y : ℝ, val_main_v8 (F := Ideal) x i = (y : EReal) := by
  obtain ⟨p, q, rfl⟩ : ∃ (p q : Fin 8192), i = ix2 p q := ⟨i 0, i 1, eq_ix2 i⟩
  rw [simT_at]
  exact simT_real _ hq ho p q

/-- The row shift is real. -/
theorem mr0_real (x : FVec Ideal S8192x512 .f32) (ho : Ideal.ofBits .f32 0x3F800000#32 = ((1 : ℝ) : EReal))
    (hq : ∀ r d, ∃ y : ℝ, Spec.xn (Ideal.ofBits .f32 0x2B8CBCCC#32) (fun r d => x (ix2 r d)) r d = (y : EReal)) :
    ∀ r, ∃ y : ℝ, mr0 x r = (y : EReal) := by
  intro r
  unfold mr0
  rw [val_main_v11_apply, val_main_v10_apply, val_main_cst_2_apply]
  unfold val_main_v9
  have hfold := Host.reduce_eq_fold_single (s := S8192x8192) (t := S8192) (a := (1 : Fin 2)) (α := Ideal .f32)
    (u := S_) (FloatOps.maximumf (F := Ideal) (φ := .f32)) (val_main_v8 (F := Ideal) x) (val_main_cst_1 (F := Ideal))
    reducesTo_S8192x8192_S8192_d1 (by decide) h_S_ (ix1 r)
  rw [hfold, val_main_cst_1_apply]
  simp only [Ideal.ofBits_def, neg_inf_lit, Ideal.maximumf_def]
  haveI : Nonempty (Fin (S8192x8192.size 1)) := ⟨⟨0, by decide⟩⟩
  exact max_bot_fold_real _ fun k => v8_real x ho hq _

/-- The column shift is real. -/
theorem mc0_real (x : FVec Ideal S8192x512 .f32) (ho : Ideal.ofBits .f32 0x3F800000#32 = ((1 : ℝ) : EReal))
    (hq : ∀ r d, ∃ y : ℝ, Spec.xn (Ideal.ofBits .f32 0x2B8CBCCC#32) (fun r d => x (ix2 r d)) r d = (y : EReal)) :
    ∀ k, ∃ y : ℝ, mc0 x k = (y : EReal) := by
  intro k
  unfold mc0
  rw [val_main_v22_apply, val_main_v21_apply, val_main_cst_5_apply]
  unfold val_main_v20
  have hfold := Host.reduce_eq_fold_single (s := S8192x8192) (t := S8192) (a := (0 : Fin 2)) (α := Ideal .f32)
    (u := S_) (FloatOps.maximumf (F := Ideal) (φ := .f32)) (val_main_v8 (F := Ideal) x) (val_main_cst_4 (F := Ideal))
    reducesTo_S8192x8192_S8192_d0 (by decide) h_S_ (ix1 k)
  rw [hfold, val_main_cst_4_apply]
  simp only [Ideal.ofBits_def, neg_inf_lit, Ideal.maximumf_def]
  haveI : Nonempty (Fin (S8192x8192.size 0)) := ⟨⟨0, by decide⟩⟩
  exact max_bot_fold_real _ fun r => v8_real x ho hq _

end Cert.RefValue

end
-- ==== Proof.Bridge.lean ====
/-
  The kernel's form and the reference's form of the specification agree at real input data, with the program's
  own literals and the shifts the reference program computes.

  The literal of the temperature denotes one and the literal of the norm floor a positive real.  At a real input
  the normalised rows are real, hence so are the two shifts of the reference (maxima of real families); with
  every quantity the image of a real number, the agreement is the real identity between the two arrangements of
  the softmax.
-/
import proofs.«118167_j19035295056148_2_alg».proof.Proof.Spec
import proofs.«118167_j19035295056148_2_alg».proof.Proof.SpecAlgebra
import proofs.«118167_j19035295056148_2_alg».proof.Proof.Consts
import proofs.«118167_j19035295056148_2_alg».proof.Proof.RefValue
import proofs.«118167_j19035295056148_2_alg».proof.Proof.RefValueShift

noncomputable section

namespace Cert.Bridge

open Idealize.ShloMosaic Idealize.ShloMosaic.ValueIdx

/-- At a real input array the kernel's form of the result equals the reference's form taken at the row and
    column shifts the reference program computes, all constants being the programs' own literals. -/
theorem outK_eq_outR_lits (x : FVec Ideal Cert.ReferenceIdeal.S8192x512 .f32)
    (hx : ∀ i, ∃ y : ℝ, x i = (y : EReal)) (g b : Fin 512 → EReal) (j : Fin 8192) (d : Fin 512) :
    Cert.Spec.outK (Ideal.ofBits .f32 0x3F800000#32) (Ideal.ofBits .f32 0x3DCCCCCD#32)
        (Ideal.ofBits .f32 0x2B8CBCCC#32) (Ideal.ofBits .f32 0x44000000#32) (Ideal.ofBits .f32 0x358637BD#32)
        (fun r d => x (ValueIdx.ix2 r d)) g b j d
      = Cert.Spec.outR (Ideal.ofBits .f32 0x3F800000#32) (Ideal.ofBits .f32 0x3DCCCCCD#32)
          (Ideal.ofBits .f32 0x2B8CBCCC#32) (Ideal.ofBits .f32 0x44000000#32) (Ideal.ofBits .f32 0x358637BD#32)
          (fun r d => x (ValueIdx.ix2 r d)) (Cert.RefValue.mr0 x) (Cert.RefValue.mc0 x) g b j d := by
  choose xr hxr using hx
  obtain ⟨cn, hcn, hcnv⟩ := Cert.Consts.ofBits_norm_eps
  have hX : (fun (r : Fin 8192) (d : Fin 512) => x (ValueIdx.ix2 r d))
      = fun r d => ((xr (ValueIdx.ix2 r d) : ℝ) : EReal) :=
    funext fun r => funext fun d => hxr (ValueIdx.ix2 r d)
  have ho : Ideal.ofBits .f32 0x3F800000#32 = ((1 : ℝ) : EReal) := by
    rw [Cert.Consts.ofBits_one, EReal.coe_one]
  obtain ⟨qr, hqr⟩ := Cert.SpecAlgebra.xn_real cn hcn (fun (r : Fin 8192) (d : Fin 512) => xr (ValueIdx.ix2 r d))
  have hq : ∀ r d, ∃ y : ℝ, Cert.Spec.xn (Ideal.ofBits .f32 0x2B8CBCCC#32)
      (fun r d => x (ValueIdx.ix2 r d)) r d = (y : EReal) := by
    intro r d
    rw [hcnv, hX]
    exact ⟨qr r d, hqr r d⟩
  choose mr hmr using Cert.RefValue.mr0_real x ho hq
  choose mc hmc using Cert.RefValue.mc0_real x ho hq
  have hMR : Cert.RefValue.mr0 x = fun r => ((mr r : ℝ) : EReal) := funext hmr
  have hMC : Cert.RefValue.mc0 x = fun k => ((mc k : ℝ) : EReal) := funext hmc
  rw [hMR, hMC, hX, Cert.Consts.ofBits_one, hcnv]
  exact Cert.SpecAlgebra.outK_eq_outR _ _ _ cn hcn (fun r d => xr (ValueIdx.ix2 r d)) mr mc g b j d

end Cert.Bridge

end
-- ==== Proof.Finite.lean ====
/-
  From the precondition to real inputs.

  The precondition is the conjunction of three tests, one per argument, each saying that every entry `v` of the
  argument satisfies `|v| < +∞`.  On the extended reals `|v| = max v (-v)`, which is `+∞` at both infinities; so an
  entry that passes the test is a real number.  Only the first argument's test is read here.
-/
import proofs.«118167_j19035295056148_2_alg».proof.Pre_finite_inputs
import Idealize.ShloMosaic.Lib.ReduceAll
import Idealize.ShloMosaic.Lib.ValueIdx

noncomputable section

namespace Cert.Finite

open Idealize.ShloMosaic
open Cert.Pre_finite_inputs

/-- The shape of rank zero has one index. -/
instance : Subsingleton S_.Idx := ⟨fun a b => funext fun d => d.elim0⟩

/-- The pattern of `+inf` denotes the top element. -/
theorem ofBits_pos_inf : Ideal.ofBits .f32 0x7F800000#32 = (⊤ : EReal) := by
  simp [Ideal.ofBits, Ideal.ieee]

/-- An extended real whose absolute value is below `+∞` is a real. -/
theorem real_of_abs_lt_top (v : EReal) (h : max v (-v) < ⊤) : ∃ y : ℝ, v = (y : EReal) := by
  induction v using EReal.rec with
  | bot => simp at h
  | coe y => exact ⟨y, rfl⟩
  | top => simp at h

/-- A comparison word that is one says the compared proposition holds. -/
theorem of_ofBool_decide {P : Prop} [Decidable P] (h : BitVec.ofBool (decide P) = 1#1) : P := by
  by_contra hn
  rw [decide_eq_false hn] at h
  exact absurd h (by decide)

/-- Under the precondition every entry of the first argument is a real. -/
theorem x_real [Facts] (x : FVec Ideal S8192x512 .f32) (g b : FVec Ideal S512 .f32)
    (h : fn (F := Ideal) x g b = fun _ => 1#1) : ∀ i, ∃ y : ℝ, x i = (y : EReal) := by
  intro i
  have h0 := congrFun h ValueIdx.ix0
  dsimp only [fn] at h0
  change IntOp.andi _ _ = 1#1 at h0
  have h1 := (IntOp.andi_eq_one.1 h0).1
  change IntOp.andi _ _ = 1#1 at h1
  have h2 := (IntOp.andi_eq_one.1 h1).1
  have h3 := Host.reduce_andi_all _ _ _ _ _ h2 i
  have h4 : BitVec.ofBool (decide (max (x i) (-(x i)) < Ideal.ofBits .f32 0x7F800000#32)) = 1#1 := h3
  have h5 := of_ofBool_decide h4
  rw [ofBits_pos_inf] at h5
  exact real_of_abs_lt_top (x i) h5

end Cert.Finite

end
-- ==== Proof.Assembly.lean ====
/-
  The five claims assembled.

  The three frames are the generated frame certificates (the reference's is its run with the result dropped), and the
  kernel's idealization rewrote nothing. For the value claim both runs are named: the kernel's result buffer ends at
  the fold of the buffer contents through its two regions, the reference's at its operations' composed term. Entry
  by entry the first is the specification's kernel form of the launched arrays and the second its reference form at the
  program's own softmax shifts; under the precondition every entry of the input is a real, and on real inputs the two
  forms are one extended real.
-/
import proofs.«118167_j19035295056148_2_alg».proof.Defs
import proofs.«118167_j19035295056148_2_alg».proof.Proof.Gen.Kernel
import proofs.«118167_j19035295056148_2_alg».proof.Proof.Gen.Kernel.Frame
import proofs.«118167_j19035295056148_2_alg».proof.Proof.Gen.KernelIdeal
import proofs.«118167_j19035295056148_2_alg».proof.Proof.Gen.KernelIdeal.Frame
import proofs.«118167_j19035295056148_2_alg».proof.Proof.Gen.ReferenceIdeal
import proofs.«118167_j19035295056148_2_alg».proof.Proof.Gen.ReferenceIdeal.Run
import proofs.«118167_j19035295056148_2_alg».proof.Proof.Gen.ReferenceIdeal.Read
import proofs.«118167_j19035295056148_2_alg».proof.Proof.Gen.Pre_finite_inputs
import proofs.«118167_j19035295056148_2_alg».proof.Proof.KernelRun
import proofs.«118167_j19035295056148_2_alg».proof.Proof.KernelGlue
import proofs.«118167_j19035295056148_2_alg».proof.Proof.RefValue
import proofs.«118167_j19035295056148_2_alg».proof.Proof.Bridge
import proofs.«118167_j19035295056148_2_alg».proof.Proof.Finite
import Idealize.ShloMosaic.Lib.ValueIdx

set_option maxRecDepth 16384

noncomputable section

namespace Cert.Proof.Assembly

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The value claim, from the kernel's result read entry by entry as the specification's kernel form. -/
theorem algebraic_of
    (hkv : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD) (j : Fin 8192) (d : Fin 512),
      Cert.KernelIdeal.Gen.W5 m ρ c (Proc.devRef .tc Cert.KernelIdeal.main_v11) (ix2 j d)
        = Cert.Spec.outK (Ideal.ofBits .f32 0x3F800000#32) (Ideal.ofBits .f32 0x3DCCCCCD#32) (Ideal.ofBits .f32 0x2B8CBCCC#32)
            (Ideal.ofBits .f32 0x44000000#32) (Ideal.ofBits .f32 0x358637BD#32)
            (fun r d => Cert.KernelIdeal.Glue.X m c (ix2 r d)) (fun d => Cert.KernelIdeal.Glue.Gm m c (ix1 d))
            (fun d => Cert.KernelIdeal.Glue.Bm m c (ix1 d)) j d) :
    Cert.algebraic_KernelIdeal_ReferenceIdeal := by
  intro m ρ m' ρ' hpre hagree
  refine ⟨fun c => Cert.KernelIdeal.Gen.W5 m ρ c (Proc.devRef .tc Cert.KernelIdeal.main_v11),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2]
  funext i
  obtain ⟨j, d, rfl⟩ : ∃ (j : Fin 8192) (d : Fin 512), i = ix2 j d := ⟨i 0, i 1, eq_ix2 i⟩
  rw [Cert.RefValue.ref_eq_outR,
    ← Cert.Bridge.outK_eq_outR_lits _ (Cert.Finite.x_real _ _ _ (hpre c))]
  exact (hkv m ρ c j d).symm

end Cert.Proof.Assembly

end
-- ==== Proof.Region0Trip.lean ====
/-
  Region 0 of the kernel (row-softmax times the value array), at one grid point: what the body's stores leave.

  The body zeroes two scratch buffers (the normaliser column and the accumulator block), makes sixteen trips over
  key chunks of 512 rows, each trip storing, over the whole scratch, a payload of the chunk's key and value blocks and
  of what the scratch held, and finally stores into the two output blocks payloads of the scratch contents. Every
  store covers its whole buffer, so each buffer always holds the payload of its latest store: the scratch contents
  after n trips obey a two-term recurrence, and the output blocks are payloads of the contents after the last trip.
-/
import proofs.«118167_j19035295056148_2_alg».proof.Proof.Gen.KernelIdeal.Frame
import Idealize.ShloMosaic.Lib.Pipeline.Value
import Idealize.ShloMosaic.Lib.Tactic

set_option maxRecDepth 16384

noncomputable section

namespace Cert.KernelIdeal.Region0

open Idealize.ShloMosaic Idealize.ShloMosaic.TcCoe Idealize.SL.Sem Idealize.ShloMosaic.Tactic
open Cert.KernelIdeal Cert.KernelIdeal.Gen

variable {F : FTy → Type} [FloatOps F]

/-- Two zero offsets are the zero offset function. -/
theorem zero_offsets : (![0, 0] : Fin 2 → Nat) = fun _ => 0 := funext fun a => by fin_cases a <;> rfl

/-- The counted loop makes sixteen trips. -/
theorem trips_eq : k0_t1_loop.trips = 16 := by decide

/-- The store that zeroes the normaliser column. -/
abbrev zero_column_store : View.Piece (Elt F) S1024x1 .f32 :=
  ⟨Rect.unit (s := S1024x1) ![0, 0] S1024x1.size inb_S1024x1_S1024x1_0_0, k0_pay1⟩

/-- The store that zeroes the accumulator block. -/
abbrev zero_block_store : View.Piece (Elt F) S1024x512 .f32 :=
  ⟨Rect.unit (s := S1024x512) ![0, 0] S1024x512.size inb_S1024x512_S1024x512_0_0, k0_pay2⟩

/-- A load of a whole buffer, after stores made over unspecified contents, reads what the stores leave. -/
theorem readAt_whole_junk {κ : Kind} {sp : Space} {S : Shape} {e : EltTy} (v : View sig κ sp S e)
    {off : Fin S.rank → Nat} (h : off = fun _ => 0) (inb : ∀ a, off a + S.size a ≤ S.size a)
    (L : List (View.Piece (Elt F) S e)) :
    v.readAt (Elt F) (Rect.unit off S.size inb).toLoadRect (v.writes (Elt F) v.junk L) = View.canon L := by
  rw [View.readAt_eq_ld, View.read_writes_junk_eq_canon, View.ld_unit_zero h]

/-- One trip stores, over the whole normaliser column, the column payload of the query block, the trip's key block and
    the column found there; and over the whole accumulator block the block payload of the query block, the trip's key and
    value blocks and the block found there. -/
theorem tripL_eq (𝒱 : Variants) (c : Dev nD) (bd : Option 𝒱.V) (i : grid0.Coords) (a1 : Memref sig .tc .vmem S8192x512 .bf16) (h1 : a1.IsWhole) (a2 : Memref sig .tc .vmem S8192x512 .bf16) (h2 : a2.IsWhole) (a3 : Memref sig .tc .vmem S1024x512 .f32) (h3 : a3.IsWhole) (a4 : Memref sig .tc .vmem S1024x1 .f32) (h4 : a4.IsWhole) (a5 : Memref sig .tc .vmem S1024x1 .f32) (h5 : a5.IsWhole) (a6 : Memref sig .tc .vmem S1024x512 .f32) (h6 : a6.IsWhole) (v3 : Vec F S1024x512 .bf16) (X1 : BufTy.Contents (Elt F) a1.view.ty) (X2 : BufTy.Contents (Elt F) a2.view.ty) (k : Fin k0_t1_loop.trips) (f5 : BufTy.Contents (Elt F) a5.view.ty) (f6 : BufTy.Contents (Elt F) a6.view.ty) :
    tripL_k0_t1 (F := F) 𝒱 c bd i a1 h1 a2 h2 a3 h3 a4 h4 a5 h5 a6 h6 v3 X1 X2 k f5 f6
      = ([⟨Rect.unit (s := S1024x1) ![0, 0] S1024x1.size inb_S1024x1_S1024x1_0_0,
            k0_pay4 v3
              (View.readAt (Elt F) a1.view (Rect.unit (s := S8192x512) (k0_off2 k) S512x512.size (k0_off2_inb k)).toLoadRect X1)
              (View.readAt (Elt F) a5.view (Rect.unit (s := S1024x1) ![0, 0] S1024x1.size inb_S1024x1_S1024x1_0_0).toLoadRect f5)⟩],
         [⟨Rect.unit (s := S1024x512) ![0, 0] S1024x512.size inb_S1024x512_S1024x512_0_0,
            k0_pay5 v3
              (View.readAt (Elt F) a1.view (Rect.unit (s := S8192x512) (k0_off2 k) S512x512.size (k0_off2_inb k)).toLoadRect X1)
              (View.readAt (Elt F) a2.view (Rect.unit (s := S8192x512) (k0_off2 k) S512x512.size (k0_off2_inb k)).toLoadRect X2)
              (View.readAt (Elt F) a6.view (Rect.unit (s := S1024x512) ![0, 0] S1024x512.size inb_S1024x512_S1024x512_0_0).toLoadRect f6)⟩]) := by
  unfold tripL_k0_t1
  unfold trip_k0_t1
  dsimp only

/-- Key chunk `k` of an array: its rows `512 k, …, 512 k + 511`. -/
abbrev kblk (x : Vec F S8192x512 .bf16) (k : Fin k0_t1_loop.trips) : Vec F S512x512 .bf16 :=
  View.ld x (Rect.unit (s := S8192x512) (k0_off2 k) S512x512.size (k0_off2_inb k))

/-- The query block of grid point `i`: rows `1024 i, …, 1024 i + 1023` of the first array. -/
abbrev qblk (i : grid0.Coords) (x : Vec F S8192x512 .bf16) : Vec F S1024x512 .bf16 :=
  View.ld x (Rect.unit (s := S8192x512) (k0_off1 i) S1024x512.size (k0_off1_inb i))

/-- The scratch contents after `n` trips (normaliser column, accumulator block): zero, then one payload per trip. -/
def acc (q : Vec F S1024x512 .bf16) (x0 x1 : Vec F S8192x512 .bf16) :
    (n : ℕ) → n ≤ k0_t1_loop.trips → Vec F S1024x1 .f32 × Vec F S1024x512 .f32
  | 0, _ => (k0_pay1, k0_pay2)
  | n + 1, h =>
    (k0_pay4 q (kblk x0 ⟨n, h⟩) (acc q x0 x1 n (Nat.le_of_succ_le h)).1,
     k0_pay5 q (kblk x0 ⟨n, h⟩) (kblk x1 ⟨n, h⟩) (acc q x0 x1 n (Nat.le_of_succ_le h)).2)

/-- The loop, by induction over its trips: after `n` trips, what the stores so far (the trips' over the zeroing ones)
    leave in the two scratch buffers is `acc n`. -/
theorem pb_canon (𝒱 : Variants) (c : Dev nD) (bd : Option 𝒱.V) (i : grid0.Coords) (a1 : Memref sig .tc .vmem S8192x512 .bf16) (h1 : a1.IsWhole) (a2 : Memref sig .tc .vmem S8192x512 .bf16) (h2 : a2.IsWhole) (a3 : Memref sig .tc .vmem S1024x512 .f32) (h3 : a3.IsWhole) (a4 : Memref sig .tc .vmem S1024x1 .f32) (h4 : a4.IsWhole) (a5 : Memref sig .tc .vmem S1024x1 .f32) (h5 : a5.IsWhole) (a6 : Memref sig .tc .vmem S1024x512 .f32) (h6 : a6.IsWhole) (v3 : Vec F S1024x512 .bf16) (X1 : BufTy.Contents (Elt F) a1.view.ty) (X2 : BufTy.Contents (Elt F) a2.view.ty) :
    ∀ (n : ℕ) (h : n ≤ k0_t1_loop.trips),
      View.canon ((pb_k0_t1 (F := F) 𝒱 c bd i a1 h1 a2 h2 a3 h3 a4 h4 a5 h5 a6 h6 v3 X1 X2 (a5.view.writes (Elt F) a5.view.junk [zero_column_store]) (a6.view.writes (Elt F) a6.view.junk [zero_block_store]) n).1 ++ [zero_column_store])
          = (acc v3 (a1.view.read (Elt F) X1) (a2.view.read (Elt F) X2) n h).1
        ∧ View.canon ((pb_k0_t1 (F := F) 𝒱 c bd i a1 h1 a2 h2 a3 h3 a4 h4 a5 h5 a6 h6 v3 X1 X2 (a5.view.writes (Elt F) a5.view.junk [zero_column_store]) (a6.view.writes (Elt F) a6.view.junk [zero_block_store]) n).2 ++ [zero_block_store])
          = (acc v3 (a1.view.read (Elt F) X1) (a2.view.read (Elt F) X2) n h).2
  | 0, _ => by
    constructor
    · show View.canon ([] ++ [zero_column_store]) = k0_pay1
      rw [List.nil_append]; exact View.canon_unit_zero zero_offsets _ _
    · show View.canon ([] ++ [zero_block_store]) = k0_pay2
      rw [List.nil_append]; exact View.canon_unit_zero zero_offsets _ _
  | n + 1, h => by
    obtain ⟨ih5, ih6⟩ := pb_canon 𝒱 c bd i a1 h1 a2 h2 a3 h3 a4 h4 a5 h5 a6 h6 v3 X1 X2 n (Nat.le_of_succ_le h)
    have e := pb_k0_t1_succ (F := F) 𝒱 c bd i a1 h1 a2 h2 a3 h3 a4 h4 a5 h5 a6 h6 v3 X1 X2 (a5.view.writes (Elt F) a5.view.junk [zero_column_store]) (a6.view.writes (Elt F) a6.view.junk [zero_block_store]) ⟨n, h⟩
    rw [tripL_eq] at e
    dsimp only at e
    rw [e]
    dsimp only
    constructor
    · rw [List.append_assoc, List.singleton_append, View.canon_cons_unit_zero zero_offsets, ← View.writes_append,
        readAt_whole_junk _ zero_offsets, ih5]
      rfl
    · rw [List.append_assoc, List.singleton_append, View.canon_cons_unit_zero zero_offsets, ← View.writes_append,
        readAt_whole_junk _ zero_offsets, ih6]
      rfl

/-- A load of the query rows from a whole staging buffer that holds `x0` reads the query block of `x0`. -/
theorem readAt_q (i : grid0.Coords) (a1 : Memref sig .tc .vmem S8192x512 .bf16) (h1 : a1.IsWhole) (x0 : Vec F S8192x512 .bf16) :
    View.readAt (Elt F) a1.view (Rect.unit (s := S8192x512) (k0_off1 i) S1024x512.size (k0_off1_inb i)).toLoadRect (h1.unread x0)
      = qblk i x0 := by
  rw [View.readAt_eq_ld, h1.read_unread]

/-- What the body leaves in the first output block: the quotient payload of the scratch contents after the last trip. -/
theorem out2_eq (c : Dev nD) (i : grid0.Coords) (a1 : Memref sig .tc .vmem S8192x512 .bf16) (h1 : a1.IsWhole) (a2 : Memref sig .tc .vmem S8192x512 .bf16) (h2 : a2.IsWhole) (a3 : Memref sig .tc .vmem S1024x512 .f32) (h3 : a3.IsWhole) (a4 : Memref sig .tc .vmem S1024x1 .f32) (h4 : a4.IsWhole) (a5 : Memref sig .tc .vmem S1024x1 .f32) (h5 : a5.IsWhole) (a6 : Memref sig .tc .vmem S1024x512 .f32) (h6 : a6.IsWhole) (x0 x1 : Vec F S8192x512 .bf16) :
    out0_A_2 c i a1 h1 a2 h2 a3 h3 a4 h4 a5 h5 a6 h6 x0 x1
      = k0_pay6 (acc (qblk i x0) x0 x1 k0_t1_loop.trips le_rfl).2 (acc (qblk i x0) x0 x1 k0_t1_loop.trips le_rfl).1 := by
  unfold out0_A_2
  rw [View.read_writes_eq_canon _ _ _ (cover0_A_2 c i a1 h1 a2 h2 a3 h3 a4 h4 a5 h5 a6 h6 x0 x1)]
  unfold kernelRun0_A
  dsimp only
  sl_unfold_run_names
  rw [View.canon_unit_zero zero_offsets, readAt_whole_junk _ zero_offsets, readAt_whole_junk _ zero_offsets]
  obtain ⟨e5, e6⟩ := pb_canon (F := F) Variants.none c none i a1 h1 a2 h2 a3 h3 a4 h4 a5 h5 a6 h6
    (View.readAt (Elt F) a1.view (Rect.unit (s := S8192x512) (k0_off1 i) S1024x512.size (k0_off1_inb i)).toLoadRect (h1.unread x0))
    (h1.unread x0) (h2.unread x1) k0_t1_loop.trips le_rfl
  first | rw [e5, e6] | fail "rw e5 e6"
  rw [readAt_q, h1.read_unread, h2.read_unread]

/-- What the body leaves in the second output block: the log payload of the normaliser column after the last trip. -/
theorem out3_eq (c : Dev nD) (i : grid0.Coords) (a1 : Memref sig .tc .vmem S8192x512 .bf16) (h1 : a1.IsWhole) (a2 : Memref sig .tc .vmem S8192x512 .bf16) (h2 : a2.IsWhole) (a3 : Memref sig .tc .vmem S1024x512 .f32) (h3 : a3.IsWhole) (a4 : Memref sig .tc .vmem S1024x1 .f32) (h4 : a4.IsWhole) (a5 : Memref sig .tc .vmem S1024x1 .f32) (h5 : a5.IsWhole) (a6 : Memref sig .tc .vmem S1024x512 .f32) (h6 : a6.IsWhole) (x0 x1 : Vec F S8192x512 .bf16) :
    out0_A_3 c i a1 h1 a2 h2 a3 h3 a4 h4 a5 h5 a6 h6 x0 x1
      = k0_pay7 (acc (qblk i x0) x0 x1 k0_t1_loop.trips le_rfl).1 := by
  unfold out0_A_3
  rw [View.read_writes_eq_canon _ _ _ (cover0_A_3 c i a1 h1 a2 h2 a3 h3 a4 h4 a5 h5 a6 h6 x0 x1)]
  unfold kernelRun0_A
  dsimp only
  sl_unfold_run_names
  rw [View.canon_unit_zero zero_offsets, readAt_whole_junk _ zero_offsets]
  obtain ⟨e5, e6⟩ := pb_canon (F := F) Variants.none c none i a1 h1 a2 h2 a3 h3 a4 h4 a5 h5 a6 h6
    (View.readAt (Elt F) a1.view (Rect.unit (s := S8192x512) (k0_off1 i) S1024x512.size (k0_off1_inb i)).toLoadRect (h1.unread x0))
    (h1.unread x0) (h2.unread x1) k0_t1_loop.trips le_rfl
  first | rw [e5] | fail "rw e5"
  rw [readAt_q, h1.read_unread, h2.read_unread]

end Cert.KernelIdeal.Region0

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Region0Block.lean ====
/-
  Region 0 at one grid point, on the extended reals: the scratch contents and the two output blocks, index by index.

  With `q` the query block (1024 rows), a key chunk `kb` (512 rows) and the matching value chunk `vb`:
  the weight block is  w (r, j) = exp (∑ d, q (r, d) · kb (j, d) − o)  (a plain product with the transposed key chunk,
  minus the fixed shift `o`, exponentiated); one trip adds  ∑ j, w (r, j)  to the normaliser column and
  ∑ j, w (r, j) · vb (j, d)  to the accumulator block (the narrowing of `w` to bf16 is the identity on the extended reals).
  Sixteen trips of 512 keys tile the 8192 keys, addition on the extended reals is commutative and associative, so after
  the last trip the column holds  ∑ k, e r k  and the block  ∑ k, e r k · v k d ; the outputs are their quotient and
  `o + log` of the column: the row-softmax times `v` and the row's log-sum-exp.
-/
import proofs.«118167_j19035295056148_2_alg».proof.Proof.Region0Trip
import proofs.«118167_j19035295056148_2_alg».proof.Proof.Spec
import proofs.«118167_j19035295056148_2_alg».proof.Proof.LibChunkedSum
import proofs.«118167_j19035295056148_2_alg».proof.Proof.LibPlainDot
import proofs.«118167_j19035295056148_2_alg».proof.Proof.LibKeepdims
import Idealize.ShloMosaic.Lib.ValueLayout

set_option maxRecDepth 16384

noncomputable section

namespace Cert.KernelIdeal.Region0

open Idealize.ShloMosaic Idealize.ShloMosaic.ValueIdx
open Cert.KernelIdeal Cert.KernelIdeal.Gen
open Cert.Lib.ChunkedSum

/-- The fixed shift the kernel subtracts before exponentiating (the word of `1.0`). -/
abbrev o1 : EReal := Ideal.ofBits .f32 0x3F800000#32

/-! ## The payloads at an index -/

theorem pay1_apply (j : S1024x1.Idx) : k0_pay1 (F := Ideal) j = 0 := by
  unfold k0_pay1
  simp only [shapeCast_self]
  exact Ideal.ofBits_zero_f32

theorem pay2_apply (j : S1024x512.Idx) : k0_pay2 (F := Ideal) j = 0 := by
  unfold k0_pay2
  simp only [shapeCast_self]
  exact Ideal.ofBits_zero_f32

/-- The weight block: `exp (∑ d, q (r, d) · kb (j, d) − o)`. -/
theorem pay3_apply (q : Vec Ideal S1024x512 .bf16) (kb : Vec Ideal S512x512 .bf16) (r : Fin 1024) (j : Fin 512) :
    k0_pay3 q kb (ix2 r j) = Ideal.exp ((∑ d : Fin 512, q (ix2 r d) * kb (ix2 j d)) - o1) := by
  unfold k0_pay3
  simp only [shapeCast_self]
  show Ideal.exp (matmul dot_S1024x512_S512x512_S1024x512_1_0_0_1_n_n none q (transpose S512x512 [1, 0] kb transposes_S512x512_p1_0_S512x512)
    (constant (F := Ideal) S1024x512 .f32 0x00000000#32) (ix2 r j) - o1) = _
  refine congrArg (fun z => Ideal.exp (z - o1)) ?_
  refine (PlainDot.matmul_zero_apply dot_S1024x512_S512x512_S1024x512_1_0_0_1_n_n rfl none q
    (transpose S512x512 [1, 0] kb transposes_S512x512_p1_0_S512x512) (ix2 r j)).trans ?_
  refine Finset.sum_congr rfl fun d _ => ?_
  exact congrArg (fun z => q (ix2 r d) * z) (transpose_ix2_apply kb transposes_S512x512_p1_0_S512x512 d j)

/-- One trip's normaliser column: what was there plus the weight block's row sums. -/
theorem pay4_apply (q : Vec Ideal S1024x512 .bf16) (kb : Vec Ideal S512x512 .bf16) (old : Vec Ideal S1024x1 .f32)
    (r : Fin 1024) (u : Fin 1) :
    k0_pay4 q kb old (ix2 r u) = old (ix2 r u) + ∑ j : Fin 512, k0_pay3 q kb (ix2 r j) := by
  unfold k0_pay4
  simp only [shapeCast_self]
  show old (ix2 r u) + shapeCast S1024x1 (multiReduction .add [1] S1024 (k0_pay3 q kb) 0x00000000#32
    reduces_S1024x512_S1024 (.inl rfl) rfl) shapeCasts_S1024_S1024x1 (ix2 r u) = _
  refine congrArg (fun z => old (ix2 r u) + z) ?_
  refine (shapeCast_a_a1_apply _ shapeCasts_S1024_S1024x1 r u).trans ?_
  exact multiReduction_add_axis1_apply (k0_pay3 q kb) reduces_S1024x512_S1024 (.inl rfl) rfl r

/-- One trip's accumulator block: what was there plus the weight block times the value chunk. -/
theorem pay5_apply (q : Vec Ideal S1024x512 .bf16) (kb vb : Vec Ideal S512x512 .bf16) (old : Vec Ideal S1024x512 .f32)
    (r : Fin 1024) (d : Fin 512) :
    k0_pay5 q kb vb old (ix2 r d) = old (ix2 r d) + ∑ j : Fin 512, k0_pay3 q kb (ix2 r j) * vb (ix2 j d) := by
  unfold k0_pay5
  simp only [shapeCast_self]
  show old (ix2 r d) + matmul dot_S1024x512_S512x512_S1024x512_1_0_0_1_n_n none (truncf .bf16 (k0_pay3 q kb) bitsLt_bf16_f32) vb
    (constant (F := Ideal) S1024x512 .f32 0x00000000#32) (ix2 r d) = _
  refine congrArg (fun z => old (ix2 r d) + z) ?_
  exact PlainDot.matmul_zero_apply dot_S1024x512_S512x512_S1024x512_1_0_0_1_n_n rfl none (truncf .bf16 (k0_pay3 q kb) bitsLt_bf16_f32) vb (ix2 r d)

/-- The first output block: the accumulator over the normaliser of its row. -/
theorem pay6_apply (A : Vec Ideal S1024x512 .f32) (L : Vec Ideal S1024x1 .f32) (r : Fin 1024) (d : Fin 512) :
    k0_pay6 A L (ix2 r d) = Ideal.div (A (ix2 r d)) (L (ix2 r (0 : Fin 1))) := by
  unfold k0_pay6
  show Ideal.div (A (ix2 r d)) (broadcastTo S1024x512 L broadcasts_S1024x1_S1024x512 (ix2 r d)) = _
  exact congrArg (Ideal.div (A (ix2 r d))) (broadcastTo_a1_ab_apply L broadcasts_S1024x1_S1024x512 r d)

/-- The second output block: the shift plus the logarithm of the normaliser. -/
theorem pay7_apply (L : Vec Ideal S1024x1 .f32) (r : Fin 1024) (u : Fin 1) :
    k0_pay7 L (ix2 r u) = o1 + Ideal.log (L (ix2 r u)) := by
  unfold k0_pay7
  rfl

/-! ## The blocks the body loads, as rows of the arrays -/

/-- Key chunk `k` at `(j, d)` is the array at row `512 k + j`. -/
theorem kblk_apply (x : Vec Ideal S8192x512 .bf16) (k : Fin k0_t1_loop.trips) (j d : Fin 512)
    (hj : 512 * k.val + j.val < 8192) : kblk x k (ix2 j d) = x (ix2 ⟨512 * k.val + j.val, hj⟩ d) := by
  show x ((Rect.unit (s := S8192x512) (k0_off2 k) S512x512.size (k0_off2_inb k)).idx (ix2 j d)) = _
  refine congrArg x (funext fun a => Fin.ext ?_)
  have e := k0_off2_eq k
  match a with
  | ⟨0, _⟩ =>
    show (k0_off2 k) 0 + 1 * j.val = 512 * k.val + j.val
    rw [e]; show 512 * k.val + 1 * j.val = _; omega
  | ⟨1, _⟩ =>
    show (k0_off2 k) 1 + 1 * d.val = d.val
    rw [e]; show 0 + 1 * d.val = _; omega

/-- The query block of grid point `i` at `(r, d)` is the array at row `1024 i + r`. -/
theorem qblk_apply (x : Vec Ideal S8192x512 .bf16) (i : grid0.Coords) (r : Fin 1024) (d : Fin 512)
    (hr : 1024 * (i 0).val + r.val < 8192) : qblk i x (ix2 r d) = x (ix2 ⟨1024 * (i 0).val + r.val, hr⟩ d) := by
  show x ((Rect.unit (s := S8192x512) (k0_off1 i) S1024x512.size (k0_off1_inb i)).idx (ix2 r d)) = _
  refine congrArg x (funext fun a => Fin.ext ?_)
  have e := k0_off1_eq i
  match a with
  | ⟨0, _⟩ =>
    show (k0_off1 i) 0 + 1 * r.val = 1024 * (i 0).val + r.val
    rw [e]; show 1024 * (i 0).val + 1 * r.val = _; omega
  | ⟨1, _⟩ =>
    show (k0_off1 i) 1 + 1 * d.val = d.val
    rw [e]; show 0 + 1 * d.val = _; omega

/-! ## The scratch contents as partial sums over the keys -/

/-- The weight of query row `r` against array row `j` (zero past the array's last row). -/
def wgt (q : Vec Ideal S1024x512 .bf16) (x0 : Vec Ideal S8192x512 .bf16) (r : Fin 1024) : ℕ → EReal :=
  fun j => if hj : j < 8192 then Ideal.exp ((∑ d : Fin 512, q (ix2 r d) * x0 (ix2 ⟨j, hj⟩ d)) - o1) else 0

/-- That weight times the value array's row `j` at feature `d`. -/
def wv (q : Vec Ideal S1024x512 .bf16) (x0 x1 : Vec Ideal S8192x512 .bf16) (r : Fin 1024) (d : Fin 512) : ℕ → EReal :=
  fun j => if hj : j < 8192 then
    Ideal.exp ((∑ d' : Fin 512, q (ix2 r d') * x0 (ix2 ⟨j, hj⟩ d')) - o1) * x1 (ix2 ⟨j, hj⟩ d) else 0

theorem trip_lt (k : Fin k0_t1_loop.trips) : k.val < 16 := Nat.lt_of_lt_of_le k.isLt k0_t1_abs.2.1

/-- The weight block of trip `k` at `(r, j)` is the weight against array row `512 k + j`. -/
theorem pay3_kblk (q : Vec Ideal S1024x512 .bf16) (x0 : Vec Ideal S8192x512 .bf16) (k : Fin k0_t1_loop.trips)
    (r : Fin 1024) (j : Fin 512) (hj : 512 * k.val + j.val < 8192) :
    k0_pay3 q (kblk x0 k) (ix2 r j)
      = Ideal.exp ((∑ d : Fin 512, q (ix2 r d) * x0 (ix2 ⟨512 * k.val + j.val, hj⟩ d)) - o1) := by
  refine (pay3_apply q (kblk x0 k) r j).trans ?_
  refine congrArg (fun z => Ideal.exp (z - o1)) (Finset.sum_congr rfl fun d _ => ?_)
  exact congrArg (fun z => q (ix2 r d) * z) (kblk_apply x0 k j d hj)

/-- Trip `k`'s row sums are chunk `k` of the weights. -/
theorem rowsum_chunk (q : Vec Ideal S1024x512 .bf16) (x0 : Vec Ideal S8192x512 .bf16) (k : Fin k0_t1_loop.trips)
    (r : Fin 1024) : ∑ j : Fin 512, k0_pay3 q (kblk x0 k) (ix2 r j) = chunk 512 (wgt q x0 r) k.val := by
  unfold chunk
  refine Finset.sum_congr rfl fun j _ => ?_
  have hk := trip_lt k
  have hj : 512 * k.val + j.val < 8192 := by have := j.isLt; omega
  refine (pay3_kblk q x0 k r j hj).trans ?_
  show _ = wgt q x0 r (512 * k.val + j.val)
  unfold wgt
  rw [dif_pos hj]

/-- Trip `k`'s weight block times its value chunk is chunk `k` of the weighted values. -/
theorem rowprod_chunk (q : Vec Ideal S1024x512 .bf16) (x0 x1 : Vec Ideal S8192x512 .bf16) (k : Fin k0_t1_loop.trips)
    (r : Fin 1024) (d : Fin 512) :
    ∑ j : Fin 512, k0_pay3 q (kblk x0 k) (ix2 r j) * kblk x1 k (ix2 j d) = chunk 512 (wv q x0 x1 r d) k.val := by
  unfold chunk
  refine Finset.sum_congr rfl fun j _ => ?_
  have hk := trip_lt k
  have hj : 512 * k.val + j.val < 8192 := by have := j.isLt; omega
  rw [pay3_kblk q x0 k r j hj, kblk_apply x1 k j d hj]
  show _ = wv q x0 x1 r d (512 * k.val + j.val)
  unfold wv
  rw [dif_pos hj]

/-- After `n` trips the normaliser column holds the first `n` chunks of the weights, and the accumulator block the first
    `n` chunks of the weighted values: by induction over the trips. -/
theorem acc_apply (q : Vec Ideal S1024x512 .bf16) (x0 x1 : Vec Ideal S8192x512 .bf16) (r : Fin 1024) (d : Fin 512) :
    ∀ (n : ℕ) (h : n ≤ k0_t1_loop.trips),
      (∀ u : Fin 1, (acc q x0 x1 n h).1 (ix2 r u) = ∑ p ∈ Finset.range n, chunk 512 (wgt q x0 r) p)
      ∧ (acc q x0 x1 n h).2 (ix2 r d) = ∑ p ∈ Finset.range n, chunk 512 (wv q x0 x1 r d) p
  | 0, _ => by
    constructor
    · intro u
      rw [Finset.sum_range_zero]
      show k0_pay1 (F := Ideal) (ix2 r u) = 0
      exact pay1_apply (ix2 r u)
    · rw [Finset.sum_range_zero]
      show k0_pay2 (F := Ideal) (ix2 r d) = 0
      exact pay2_apply (ix2 r d)
  | n + 1, h => by
    obtain ⟨ih1, ih2⟩ := acc_apply q x0 x1 r d n (Nat.le_of_succ_le h)
    constructor
    · intro u
      show k0_pay4 q (kblk x0 ⟨n, h⟩) (acc q x0 x1 n (Nat.le_of_succ_le h)).1 (ix2 r u) = _
      rw [pay4_apply, ih1 u, Finset.sum_range_succ, rowsum_chunk]
    · show k0_pay5 q (kblk x0 ⟨n, h⟩) (kblk x1 ⟨n, h⟩) (acc q x0 x1 n (Nat.le_of_succ_le h)).2 (ix2 r d) = _
      rw [pay5_apply, ih2, Finset.sum_range_succ, rowprod_chunk]

/-- Sixteen chunks of 512 weights are all 8192 of them. -/
theorem sum_wgt (q : Vec Ideal S1024x512 .bf16) (x0 : Vec Ideal S8192x512 .bf16) (r : Fin 1024) :
    ∑ p ∈ Finset.range 16, chunk 512 (wgt q x0 r) p
      = ∑ k : Fin 8192, Ideal.exp ((∑ d : Fin 512, q (ix2 r d) * x0 (ix2 k d)) - o1) := by
  rw [sum_chunks 16 512]
  show ∑ j : Fin 8192, wgt q x0 r j.val = _
  refine Finset.sum_congr rfl fun k _ => ?_
  unfold wgt
  rw [dif_pos k.isLt]

theorem sum_wv (q : Vec Ideal S1024x512 .bf16) (x0 x1 : Vec Ideal S8192x512 .bf16) (r : Fin 1024) (d : Fin 512) :
    ∑ p ∈ Finset.range 16, chunk 512 (wv q x0 x1 r d) p
      = ∑ k : Fin 8192, Ideal.exp ((∑ d' : Fin 512, q (ix2 r d') * x0 (ix2 k d')) - o1) * x1 (ix2 k d) := by
  rw [sum_chunks 16 512]
  show ∑ j : Fin 8192, wv q x0 x1 r d j.val = _
  refine Finset.sum_congr rfl fun k _ => ?_
  unfold wv
  rw [dif_pos k.isLt]

/-! ## The two output blocks -/

/-- The first output block at `(r, d)` is the row-softmax times the value array, at array row `1024 i + r`. -/
theorem block_orow (x0 x1 : Vec Ideal S8192x512 .bf16) (i : grid0.Coords) (r : Fin 1024) (d : Fin 512)
    (hr : 1024 * (i 0).val + r.val < 8192) :
    k0_pay6 (acc (qblk i x0) x0 x1 k0_t1_loop.trips le_rfl).2 (acc (qblk i x0) x0 x1 k0_t1_loop.trips le_rfl).1 (ix2 r d)
      = Cert.Spec.orow o1 (fun a b => x0 (ix2 a b)) (fun a b => x1 (ix2 a b)) ⟨1024 * (i 0).val + r.val, hr⟩ d := by
  obtain ⟨e1, e2⟩ := acc_apply (qblk i x0) x0 x1 r d k0_t1_loop.trips le_rfl
  rw [pay6_apply, e2, e1 0, trips_eq, sum_wgt, sum_wv]
  unfold Cert.Spec.orow Cert.Spec.l Cert.Spec.e Cert.Spec.sim
  simp only [qblk_apply x0 i r _ hr]

/-- The second output block at `(r, 0)` is the row's log-sum-exp, at array row `1024 i + r`. -/
theorem block_lse (x0 x1 : Vec Ideal S8192x512 .bf16) (i : grid0.Coords) (r : Fin 1024) (u : Fin 1)
    (hr : 1024 * (i 0).val + r.val < 8192) :
    k0_pay7 (acc (qblk i x0) x0 x1 k0_t1_loop.trips le_rfl).1 (ix2 r u)
      = Cert.Spec.lse o1 (fun a b => x0 (ix2 a b)) ⟨1024 * (i 0).val + r.val, hr⟩ := by
  obtain ⟨e1, -⟩ := acc_apply (qblk i x0) x0 x1 r 0 k0_t1_loop.trips le_rfl
  rw [pay7_apply, e1 u, trips_eq, sum_wgt]
  unfold Cert.Spec.lse Cert.Spec.l Cert.Spec.e Cert.Spec.sim
  simp only [qblk_apply x0 i r _ hr]

end Cert.KernelIdeal.Region0

end
-- ==== Proof.RegionCover.lean ====
/-
  From blocks to arrays, for the two regions of this kernel.

  Region 0 runs over 8 grid points.  At point `t` its two output windows write rows `1024 t … 1024 t + 1023` of an
  `[8192, 512]` array and of an `[8192, 1]` array.  Region 1 runs over 16 grid points; at point `t` its output
  window writes rows `512 t … 512 t + 511` of an `[8192, 512]` array, and two of its input windows read the same rows
  of two `[8192, 512]` arrays.  Every other input window is its whole array at every point.

  A block's element `y` sits in the array at (block index) × (block size) + `y` on each axis; the block indices are
  decided once over the grid.  Row `r` of an output array lies in the block of point `r / 1024` (region 0) or
  `r / 512` (region 1), and every point writes its block back, so the blocks cover the array: if each point writes
  back the restriction of one function `G` to its block, the array ends holding `G`.
-/
import proofs.«118167_j19035295056148_2_alg».proof.Proof.Gen.KernelIdeal.Frame
import Idealize.ShloMosaic.Lib.Pipeline.Value

set_option maxRecDepth 16384

noncomputable section

namespace Cert.KernelIdeal.Cover

open Idealize.ShloMosaic Idealize.ShloMosaic.TcCoe
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## Region 0: the block indices, decided over the grid -/

/-- The two whole-array input windows of region 0 stay at block (0, 0). -/
theorem index0_in : ∀ t : Fin cfg0.N,
    win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The two output windows of region 0 are at block (t, 0) at point `t`. -/
theorem index0_out : ∀ t : Fin cfg0.N,
    win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## Region 0: where a block's element sits in its array -/

/-- Input window 0 of region 0 is its whole array. -/
theorem emb0_0 (t : Fin cfg0.N) (y : S8192x512.Idx) : ((cfg0.win 0).blk t).view.emb y = y := by
  obtain ⟨e0, e1, -, -⟩ := index0_in t
  funext a; apply Fin.ext
  match a with
  | ⟨0, _⟩ => show win0_0.index t (0 : Fin 2) * 8192 + 1 * (y 0).val = (y 0).val; omega
  | ⟨1, _⟩ => show win0_0.index t (1 : Fin 2) * 512 + 1 * (y 1).val = (y 1).val; omega

/-- Input window 1 of region 0 is its whole array. -/
theorem emb0_1 (t : Fin cfg0.N) (y : S8192x512.Idx) : ((cfg0.win 1).blk t).view.emb y = y := by
  obtain ⟨-, -, e0, e1⟩ := index0_in t
  funext a; apply Fin.ext
  match a with
  | ⟨0, _⟩ => show win0_1.index t (0 : Fin 2) * 8192 + 1 * (y 0).val = (y 0).val; omega
  | ⟨1, _⟩ => show win0_1.index t (1 : Fin 2) * 512 + 1 * (y 1).val = (y 1).val; omega

/-- Output window 2 of region 0: element `y` of point `t`'s block is at row `1024 t + y 0`, column `y 1`. -/
theorem emb0_2 (t : Fin cfg0.N) (y : S1024x512.Idx) :
    ((((cfg0.win 2).blk t).view.emb y) (0 : Fin 2)).val = 1024 * t.val + (y 0).val
    ∧ ((((cfg0.win 2).blk t).view.emb y) (1 : Fin 2)).val = (y 1).val := by
  obtain ⟨e0, e1, -, -⟩ := index0_out t
  constructor
  · show win0_2.index t (0 : Fin 2) * 1024 + 1 * (y 0).val = _; omega
  · show win0_2.index t (1 : Fin 2) * 512 + 1 * (y 1).val = _; omega

/-- Output window 3 of region 0: element `y` of point `t`'s block is at row `1024 t + y 0`, column `y 1`. -/
theorem emb0_3 (t : Fin cfg0.N) (y : S1024x1.Idx) :
    ((((cfg0.win 3).blk t).view.emb y) (0 : Fin 2)).val = 1024 * t.val + (y 0).val
    ∧ ((((cfg0.win 3).blk t).view.emb y) (1 : Fin 2)).val = (y 1).val := by
  obtain ⟨-, -, e0, e1⟩ := index0_out t
  constructor
  · show win0_3.index t (0 : Fin 2) * 1024 + 1 * (y 0).val = _; omega
  · show win0_3.index t (1 : Fin 2) * 1 + 1 * (y 1).val = _; omega

/-! ## Region 0: the output blocks cover their arrays -/

/-- An index of the array is in point `t`'s block of output window 2 iff each coordinate is in the block's range. -/
theorem mem_blk0_2 (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v7_0).slice (win0_2.rect t)).set ↔ _
  rw [View.set_slice_whole, Rect.mem_set_unit]
  exact Iff.rfl

/-- An index of the array is in point `t`'s block of output window 3 iff each coordinate is in the block's range. -/
theorem mem_blk0_3 (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v7_1).slice (win0_3.rect t)).set ↔ _
  rw [View.set_slice_whole, Rect.mem_set_unit]
  exact Iff.rfl

/-- Row `r` of the first output array is in the block of point `r / 1024`, which is written back. -/
theorem cover0_2 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  have ht : (i 0).val / 1024 < cfg0.N := by rw [hN]; omega
  refine ⟨⟨(i 0).val / 1024, ht⟩, flush0_2 _, ?_⟩
  rw [mem_blk0_2]
  obtain ⟨e0, e1, -, -⟩ := index0_out ⟨(i 0).val / 1024, ht⟩
  have e0' : win0_2.index ⟨(i 0).val / 1024, ht⟩ (0 : Fin 2) = (i 0).val / 1024 := e0
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    omega
  | ⟨1, _⟩ =>
    show win0_2.index ⟨(i 0).val / 1024, ht⟩ (1 : Fin 2) * 512 ≤ (i 1).val
      ∧ (i 1).val < win0_2.index ⟨(i 0).val / 1024, ht⟩ (1 : Fin 2) * 512 + 512
    omega

/-- Row `r` of the second output array is in the block of point `r / 1024`, which is written back. -/
theorem cover0_3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 8 := N_0
  have ht : (i 0).val / 1024 < cfg0.N := by rw [hN]; omega
  refine ⟨⟨(i 0).val / 1024, ht⟩, flush0_3 _, ?_⟩
  rw [mem_blk0_3]
  obtain ⟨-, -, e0, e1⟩ := index0_out ⟨(i 0).val / 1024, ht⟩
  have e0' : win0_3.index ⟨(i 0).val / 1024, ht⟩ (0 : Fin 2) = (i 0).val / 1024 := e0
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    omega
  | ⟨1, _⟩ =>
    show win0_3.index ⟨(i 0).val / 1024, ht⟩ (1 : Fin 2) * 1 ≤ (i 1).val
      ∧ (i 1).val < win0_3.index ⟨(i 0).val / 1024, ht⟩ (1 : Fin 2) * 1 + 1
    omega

/-- If every point of region 0 writes back the restriction of `G` to its block of output window 2, the array ends
    holding `G`. -/
theorem final0_2 (c : Dev nD) (G : S8192x512.Idx → Elt F .f32)
    (h : ∀ t : Fin cfg0.N, (dat0 V c).flushed 2 t = ((cfg0.win 2).blk t).view.read (Elt F) G) :
    (dat0 V c).arrAt 2 cfg0.N = G :=
  (dat0 V c).arrAt_eq_of_cover 2 G (fun t _ => h t) cover0_2

/-- If every point of region 0 writes back the restriction of `G` to its block of output window 3, the array ends
    holding `G`. -/
theorem final0_3 (c : Dev nD) (G : S8192x1.Idx → Elt F .f32)
    (h : ∀ t : Fin cfg0.N, (dat0 V c).flushed 3 t = ((cfg0.win 3).blk t).view.read (Elt F) G) :
    (dat0 V c).arrAt 3 cfg0.N = G :=
  (dat0 V c).arrAt_eq_of_cover 3 G (fun t _ => h t) cover0_3

/-! ## Region 1: the block indices, decided over the grid

Windows 0, 1, 2, 5, 6 stay at block (0, 0); windows 3, 4 (inputs) and 7 (the output) are at block (t, 0) at point `t`. -/

theorem index1_0 : ∀ t : Fin cfg1.N, win1_0.index t (0 : Fin 2) = 0 ∧ win1_0.index t (1 : Fin 2) = 0 :=
  (by decide +kernel : ∀ t : Fin grid1.N, _)

theorem index1_1 : ∀ t : Fin cfg1.N, win1_1.index t (0 : Fin 2) = 0 ∧ win1_1.index t (1 : Fin 2) = 0 :=
  (by decide +kernel : ∀ t : Fin grid1.N, _)

theorem index1_2 : ∀ t : Fin cfg1.N, win1_2.index t (0 : Fin 2) = 0 ∧ win1_2.index t (1 : Fin 2) = 0 :=
  (by decide +kernel : ∀ t : Fin grid1.N, _)

theorem index1_3 : ∀ t : Fin cfg1.N, win1_3.index t (0 : Fin 2) = t.val ∧ win1_3.index t (1 : Fin 2) = 0 :=
  (by decide +kernel : ∀ t : Fin grid1.N, _)

theorem index1_4 : ∀ t : Fin cfg1.N, win1_4.index t (0 : Fin 2) = t.val ∧ win1_4.index t (1 : Fin 2) = 0 :=
  (by decide +kernel : ∀ t : Fin grid1.N, _)

theorem index1_5 : ∀ t : Fin cfg1.N, win1_5.index t (0 : Fin 2) = 0 ∧ win1_5.index t (1 : Fin 2) = 0 :=
  (by decide +kernel : ∀ t : Fin grid1.N, _)

theorem index1_6 : ∀ t : Fin cfg1.N, win1_6.index t (0 : Fin 2) = 0 ∧ win1_6.index t (1 : Fin 2) = 0 :=
  (by decide +kernel : ∀ t : Fin grid1.N, _)

theorem index1_7 : ∀ t : Fin cfg1.N, win1_7.index t (0 : Fin 2) = t.val ∧ win1_7.index t (1 : Fin 2) = 0 :=
  (by decide +kernel : ∀ t : Fin grid1.N, _)

/-! ## Region 1: where a block's element sits in its array -/

/-- Input window 0 of region 1 is its whole array. -/
theorem emb1_0 (t : Fin cfg1.N) (y : S8192x512.Idx) : ((cfg1.win 0).blk t).view.emb y = y := by
  obtain ⟨e0, e1⟩ := index1_0 t
  funext a; apply Fin.ext
  match a with
  | ⟨0, _⟩ => show win1_0.index t (0 : Fin 2) * 8192 + 1 * (y 0).val = (y 0).val; omega
  | ⟨1, _⟩ => show win1_0.index t (1 : Fin 2) * 512 + 1 * (y 1).val = (y 1).val; omega

/-- Input window 1 of region 1 is its whole array. -/
theorem emb1_1 (t : Fin cfg1.N) (y : S8192x512.Idx) : ((cfg1.win 1).blk t).view.emb y = y := by
  obtain ⟨e0, e1⟩ := index1_1 t
  funext a; apply Fin.ext
  match a with
  | ⟨0, _⟩ => show win1_1.index t (0 : Fin 2) * 8192 + 1 * (y 0).val = (y 0).val; omega
  | ⟨1, _⟩ => show win1_1.index t (1 : Fin 2) * 512 + 1 * (y 1).val = (y 1).val; omega

/-- Input window 2 of region 1 is its whole array. -/
theorem emb1_2 (t : Fin cfg1.N) (y : S1x8192.Idx) : ((cfg1.win 2).blk t).view.emb y = y := by
  obtain ⟨e0, e1⟩ := index1_2 t
  funext a; apply Fin.ext
  match a with
  | ⟨0, _⟩ => show win1_2.index t (0 : Fin 2) * 1 + 1 * (y 0).val = (y 0).val; omega
  | ⟨1, _⟩ => show win1_2.index t (1 : Fin 2) * 8192 + 1 * (y 1).val = (y 1).val; omega

/-- Input window 3 of region 1: element `y` of point `t`'s block is at row `512 t + y 0`, column `y 1`. -/
theorem emb1_3 (t : Fin cfg1.N) (y : S512x512.Idx) :
    ((((cfg1.win 3).blk t).view.emb y) (0 : Fin 2)).val = 512 * t.val + (y 0).val
    ∧ ((((cfg1.win 3).blk t).view.emb y) (1 : Fin 2)).val = (y 1).val := by
  obtain ⟨e0, e1⟩ := index1_3 t
  constructor
  · show win1_3.index t (0 : Fin 2) * 512 + 1 * (y 0).val = _; omega
  · show win1_3.index t (1 : Fin 2) * 512 + 1 * (y 1).val = _; omega

/-- Input window 4 of region 1: element `y` of point `t`'s block is at row `512 t + y 0`, column `y 1`. -/
theorem emb1_4 (t : Fin cfg1.N) (y : S512x512.Idx) :
    ((((cfg1.win 4).blk t).view.emb y) (0 : Fin 2)).val = 512 * t.val + (y 0).val
    ∧ ((((cfg1.win 4).blk t).view.emb y) (1 : Fin 2)).val = (y 1).val := by
  obtain ⟨e0, e1⟩ := index1_4 t
  constructor
  · show win1_4.index t (0 : Fin 2) * 512 + 1 * (y 0).val = _; omega
  · show win1_4.index t (1 : Fin 2) * 512 + 1 * (y 1).val = _; omega

/-- Input window 5 of region 1 is its whole array. -/
theorem emb1_5 (t : Fin cfg1.N) (y : S1x512.Idx) : ((cfg1.win 5).blk t).view.emb y = y := by
  obtain ⟨e0, e1⟩ := index1_5 t
  funext a; apply Fin.ext
  match a with
  | ⟨0, _⟩ => show win1_5.index t (0 : Fin 2) * 1 + 1 * (y 0).val = (y 0).val; omega
  | ⟨1, _⟩ => show win1_5.index t (1 : Fin 2) * 512 + 1 * (y 1).val = (y 1).val; omega

/-- Input window 6 of region 1 is its whole array. -/
theorem emb1_6 (t : Fin cfg1.N) (y : S1x512.Idx) : ((cfg1.win 6).blk t).view.emb y = y := by
  obtain ⟨e0, e1⟩ := index1_6 t
  funext a; apply Fin.ext
  match a with
  | ⟨0, _⟩ => show win1_6.index t (0 : Fin 2) * 1 + 1 * (y 0).val = (y 0).val; omega
  | ⟨1, _⟩ => show win1_6.index t (1 : Fin 2) * 512 + 1 * (y 1).val = (y 1).val; omega

/-- Output window 7 of region 1: element `y` of point `t`'s block is at row `512 t + y 0`, column `y 1`. -/
theorem emb1_7 (t : Fin cfg1.N) (y : S512x512.Idx) :
    ((((cfg1.win 7).blk t).view.emb y) (0 : Fin 2)).val = 512 * t.val + (y 0).val
    ∧ ((((cfg1.win 7).blk t).view.emb y) (1 : Fin 2)).val = (y 1).val := by
  obtain ⟨e0, e1⟩ := index1_7 t
  constructor
  · show win1_7.index t (0 : Fin 2) * 512 + 1 * (y 0).val = _; omega
  · show win1_7.index t (1 : Fin 2) * 512 + 1 * (y 1).val = _; omega

/-! ## Region 1: the output blocks cover the array -/

/-- An index of the array is in point `t`'s block of output window 7 iff each coordinate is in the block's range. -/
theorem mem_blk1_7 (t : Fin cfg1.N) (i : S8192x512.Idx) :
    i ∈ ((cfg1.win 7).blk t).view.set ↔ ∀ a : Fin 2, win1_7.index t a * S512x512.size a ≤ (i a).val
      ∧ (i a).val < win1_7.index t a * S512x512.size a + S512x512.size a := by
  show i ∈ ((View.whole main_v11).slice (win1_7.rect t)).set ↔ _
  rw [View.set_slice_whole, Rect.mem_set_unit]
  exact Iff.rfl

/-- Row `r` of the output array is in the block of point `r / 512`, which is written back. -/
theorem cover1_7 (i : S8192x512.Idx) :
    ∃ t : Fin cfg1.N, (cfg1.win 7).flush t = true ∧ i ∈ ((cfg1.win 7).blk t).view.set := by
  have hi0 : (i 0).val < 8192 := (i 0).isLt
  have hi1 : (i 1).val < 512 := (i 1).isLt
  have hN : cfg1.N = 16 := N_1
  have ht : (i 0).val / 512 < cfg1.N := by rw [hN]; omega
  refine ⟨⟨(i 0).val / 512, ht⟩, flush1_7 _, ?_⟩
  rw [mem_blk1_7]
  obtain ⟨e0, e1⟩ := index1_7 ⟨(i 0).val / 512, ht⟩
  have e0' : win1_7.index ⟨(i 0).val / 512, ht⟩ (0 : Fin 2) = (i 0).val / 512 := e0
  intro a
  match a with
  | ⟨0, _⟩ =>
    show win1_7.index ⟨(i 0).val / 512, ht⟩ (0 : Fin 2) * 512 ≤ (i 0).val
      ∧ (i 0).val < win1_7.index ⟨(i 0).val / 512, ht⟩ (0 : Fin 2) * 512 + 512
    omega
  | ⟨1, _⟩ =>
    show win1_7.index ⟨(i 0).val / 512, ht⟩ (1 : Fin 2) * 512 ≤ (i 1).val
      ∧ (i 1).val < win1_7.index ⟨(i 0).val / 512, ht⟩ (1 : Fin 2) * 512 + 512
    omega

/-- If every point of region 1 writes back the restriction of `G` to its block of output window 7, the array ends
    holding `G`. -/
theorem final1_7 (c : Dev nD) (G : S8192x512.Idx → Elt F .f32)
    (h : ∀ t : Fin cfg1.N, (dat1 V c).flushed 7 t = ((cfg1.win 7).blk t).view.read (Elt F) G) :
    (dat1 V c).arrAt 7 cfg1.N = G :=
  (dat1 V c).arrAt_eq_of_cover 7 G (fun t _ => h t) cover1_7

end Cert.KernelIdeal.Cover

end
-- ==== Proof.RegionCoverPoints.lean ====
/-
  The blocks of the two regions, element by element.

  An input window's block at a point is its array read where the block sits: the whole array for the windows that
  do not move, rows `512 t … 512 t + 511` for the two row-blocked inputs of region 1.  An output array ends holding
  `G` as soon as, at every point `t`, the element `y` of what the body leaves in the output's buffer is `G` at row
  (block rows) × `t` + `y 0` and column `y 1`.
-/
import proofs.«118167_j19035295056148_2_alg».proof.Proof.RegionCover

set_option maxRecDepth 16384

noncomputable section

namespace Cert.KernelIdeal.Cover

open Idealize.ShloMosaic Idealize.ShloMosaic.TcCoe
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## Region 0 -/

/-- Input window 0 of region 0 holds its whole array at every point. -/
theorem iblk0_0_eq (c : Dev nD) (t : Fin cfg0.N) :
    (iblk0 V c 0 t : Vec F S8192x512 .bf16) = V c (Pipeline.arrRef spec0 0) := by
  funext y
  show V c (Pipeline.arrRef spec0 0) (((cfg0.win 0).blk t).view.emb y) = _
  rw [emb0_0]

/-- Input window 1 of region 0 holds its whole array at every point. -/
theorem iblk0_1_eq (c : Dev nD) (t : Fin cfg0.N) :
    (iblk0 V c 1 t : Vec F S8192x512 .bf16) = V c (Pipeline.arrRef spec0 1) := by
  funext y
  show V c (Pipeline.arrRef spec0 1) (((cfg0.win 1).blk t).view.emb y) = _
  rw [emb0_1]

/-- The first output array of region 0 ends holding `G` when, at every point, what the body leaves in its buffer is
    `G` on rows `1024 t … 1024 t + 1023`. -/
theorem final0_2_of_points (c : Dev nD) (G : S8192x512.Idx → Elt F .f32)
    (h : ∀ (t : Fin cfg0.N) (y : S1024x512.Idx) (k : S8192x512.Idx), (k 0).val = 1024 * t.val + (y 0).val →
      (k 1).val = (y 1).val → (outsAt0 V c t).1 y = G k) :
    (dat0 V c).arrAt 2 cfg0.N = G := by
  refine final0_2 V c G fun t => ?_
  show (cfg0.win 2).cut (grid0.coords t) ((dat0 V c).after 2 t) = _
  rw [after0_2]
  funext y
  show (outsAt0 V c t).1 y = G (((cfg0.win 2).blk t).view.emb y)
  exact h t y _ (emb0_2 t y).1 (emb0_2 t y).2

/-- The second output array of region 0 ends holding `G` when, at every point, what the body leaves in its buffer is
    `G` on rows `1024 t … 1024 t + 1023`. -/
theorem final0_3_of_points (c : Dev nD) (G : S8192x1.Idx → Elt F .f32)
    (h : ∀ (t : Fin cfg0.N) (y : S1024x1.Idx) (k : S8192x1.Idx), (k 0).val = 1024 * t.val + (y 0).val →
      (k 1).val = (y 1).val → (outsAt0 V c t).2 y = G k) :
    (dat0 V c).arrAt 3 cfg0.N = G := by
  refine final0_3 V c G fun t => ?_
  show (cfg0.win 3).cut (grid0.coords t) ((dat0 V c).after 3 t) = _
  rw [after0_3]
  funext y
  show (outsAt0 V c t).2 y = G (((cfg0.win 3).blk t).view.emb y)
  exact h t y _ (emb0_3 t y).1 (emb0_3 t y).2

/-! ## Region 1 -/

/-- Input window 0 of region 1 holds its whole array at every point. -/
theorem iblk1_0_eq (c : Dev nD) (t : Fin cfg1.N) :
    (iblk1 V c 0 t : Vec F S8192x512 .bf16) = V c (Pipeline.arrRef spec1 0) := by
  funext y
  show V c (Pipeline.arrRef spec1 0) (((cfg1.win 0).blk t).view.emb y) = _
  rw [emb1_0]

/-- Input window 1 of region 1 holds its whole array at every point. -/
theorem iblk1_1_eq (c : Dev nD) (t : Fin cfg1.N) :
    (iblk1 V c 1 t : Vec F S8192x512 .bf16) = V c (Pipeline.arrRef spec1 1) := by
  funext y
  show V c (Pipeline.arrRef spec1 1) (((cfg1.win 1).blk t).view.emb y) = _
  rw [emb1_1]

/-- Input window 2 of region 1 holds its whole array at every point. -/
theorem iblk1_2_eq (c : Dev nD) (t : Fin cfg1.N) :
    (iblk1 V c 2 t : Vec F S1x8192 .f32) = V c (Pipeline.arrRef spec1 2) := by
  funext y
  show V c (Pipeline.arrRef spec1 2) (((cfg1.win 2).blk t).view.emb y) = _
  rw [emb1_2]

/-- Input window 3 of region 1 at point `t` holds rows `512 t … 512 t + 511` of its array. -/
theorem iblk1_3_apply (c : Dev nD) (t : Fin cfg1.N) (y : S512x512.Idx) (k : S8192x512.Idx)
    (hk0 : (k 0).val = 512 * t.val + (y 0).val) (hk1 : (k 1).val = (y 1).val) :
    (iblk1 V c 3 t : Vec F S512x512 .f32) y = (V c (Pipeline.arrRef spec1 3) : S8192x512.Idx → Elt F .f32) k := by
  show V c (Pipeline.arrRef spec1 3) (((cfg1.win 3).blk t).view.emb y) = _
  refine congrArg _ (funext fun a => Fin.ext ?_)
  match a with
  | ⟨0, _⟩ => exact (emb1_3 t y).1.trans hk0.symm
  | ⟨1, _⟩ => exact (emb1_3 t y).2.trans hk1.symm

/-- Input window 4 of region 1 at point `t` holds rows `512 t … 512 t + 511` of its array. -/
theorem iblk1_4_apply (c : Dev nD) (t : Fin cfg1.N) (y : S512x512.Idx) (k : S8192x512.Idx)
    (hk0 : (k 0).val = 512 * t.val + (y 0).val) (hk1 : (k 1).val = (y 1).val) :
    (iblk1 V c 4 t : Vec F S512x512 .f32) y = (V c (Pipeline.arrRef spec1 4) : S8192x512.Idx → Elt F .f32) k := by
  show V c (Pipeline.arrRef spec1 4) (((cfg1.win 4).blk t).view.emb y) = _
  refine congrArg _ (funext fun a => Fin.ext ?_)
  match a with
  | ⟨0, _⟩ => exact (emb1_4 t y).1.trans hk0.symm
  | ⟨1, _⟩ => exact (emb1_4 t y).2.trans hk1.symm

/-- Input window 5 of region 1 holds its whole array at every point. -/
theorem iblk1_5_eq (c : Dev nD) (t : Fin cfg1.N) :
    (iblk1 V c 5 t : Vec F S1x512 .f32) = V c (Pipeline.arrRef spec1 5) := by
  funext y
  show V c (Pipeline.arrRef spec1 5) (((cfg1.win 5).blk t).view.emb y) = _
  rw [emb1_5]

/-- Input window 6 of region 1 holds its whole array at every point. -/
theorem iblk1_6_eq (c : Dev nD) (t : Fin cfg1.N) :
    (iblk1 V c 6 t : Vec F S1x512 .f32) = V c (Pipeline.arrRef spec1 6) := by
  funext y
  show V c (Pipeline.arrRef spec1 6) (((cfg1.win 6).blk t).view.emb y) = _
  rw [emb1_6]

/-- The output array of region 1 ends holding `G` when, at every point, what the body leaves in its buffer is `G` on
    rows `512 t … 512 t + 511`. -/
theorem final1_7_of_points (c : Dev nD) (G : S8192x512.Idx → Elt F .f32)
    (h : ∀ (t : Fin cfg1.N) (y : S512x512.Idx) (k : S8192x512.Idx), (k 0).val = 512 * t.val + (y 0).val →
      (k 1).val = (y 1).val → outsAt1 V c t y = G k) :
    (dat1 V c).arrAt 7 cfg1.N = G := by
  refine final1_7 V c G fun t => ?_
  show (cfg1.win 7).cut (grid1.coords t) ((dat1 V c).after 7 t) = _
  rw [after1_7]
  funext y
  show outsAt1 V c t y = G (((cfg1.win 7).blk t).view.emb y)
  exact h t y _ (emb1_7 t y).1 (emb1_7 t y).2

end Cert.KernelIdeal.Cover

end
-- ==== Proof.Region0Value.lean ====
/-
  Region 0, from blocks to arrays: what the two output arrays hold after the region's eight grid points.

  Grid point `t` writes back, as rows `1024 t, …, 1024 t + 1023` of the first output array, the row-softmax of the Gram
  matrix of the first input array (at the fixed shift) times the second input array, and as the same rows of the second
  output array that row's log-sum-exp; the eight points' row blocks tile the 8192 rows, and both input windows are the
  whole arrays at every point.
-/
import proofs.«118167_j19035295056148_2_alg».proof.Proof.Region0Block
import proofs.«118167_j19035295056148_2_alg».proof.Proof.RegionCoverPoints

set_option maxRecDepth 16384

noncomputable section

namespace Cert.KernelIdeal.Region0

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The grid is one axis of eight points: a point's coordinate is its number. -/
theorem coords_val : ∀ t : Fin cfg0.N, ((grid0.coords t) 0).val = t.val :=
  (by decide +kernel : ∀ t : Fin grid0.N, ((grid0.coords t) 0).val = t.val)

/-- The first output block of the body at grid coordinate `i`, on any staging memrefs holding the arrays `x0`, `x1`:
    at `(r, d)` it is the row-softmax times `x1` at array row `1024 i + r`. -/
theorem out2_apply (c : Dev nD) (i : grid0.Coords) (a1 : Memref sig .tc .vmem S8192x512 .bf16) (h1 : a1.IsWhole) (a2 : Memref sig .tc .vmem S8192x512 .bf16) (h2 : a2.IsWhole) (a3 : Memref sig .tc .vmem S1024x512 .f32) (h3 : a3.IsWhole) (a4 : Memref sig .tc .vmem S1024x1 .f32) (h4 : a4.IsWhole) (a5 : Memref sig .tc .vmem S1024x1 .f32) (h5 : a5.IsWhole) (a6 : Memref sig .tc .vmem S1024x512 .f32) (h6 : a6.IsWhole) (x0 x1 : Vec Ideal S8192x512 .bf16) (r : Fin 1024) (d : Fin 512)
    (hr : 1024 * (i 0).val + r.val < 8192) :
    out0_A_2 c i a1 h1 a2 h2 a3 h3 a4 h4 a5 h5 a6 h6 x0 x1 (ix2 r d)
      = Cert.Spec.orow o1 (fun a b => x0 (ix2 a b)) (fun a b => x1 (ix2 a b)) ⟨1024 * (i 0).val + r.val, hr⟩ d := by
  rw [out2_eq]
  exact block_orow x0 x1 i r d hr

/-- The second output block likewise: the log-sum-exp of array row `1024 i + r`. -/
theorem out3_apply (c : Dev nD) (i : grid0.Coords) (a1 : Memref sig .tc .vmem S8192x512 .bf16) (h1 : a1.IsWhole) (a2 : Memref sig .tc .vmem S8192x512 .bf16) (h2 : a2.IsWhole) (a3 : Memref sig .tc .vmem S1024x512 .f32) (h3 : a3.IsWhole) (a4 : Memref sig .tc .vmem S1024x1 .f32) (h4 : a4.IsWhole) (a5 : Memref sig .tc .vmem S1024x1 .f32) (h5 : a5.IsWhole) (a6 : Memref sig .tc .vmem S1024x512 .f32) (h6 : a6.IsWhole) (x0 x1 : Vec Ideal S8192x512 .bf16) (r : Fin 1024) (u : Fin 1)
    (hr : 1024 * (i 0).val + r.val < 8192) :
    out0_A_3 c i a1 h1 a2 h2 a3 h3 a4 h4 a5 h5 a6 h6 x0 x1 (ix2 r u)
      = Cert.Spec.lse o1 (fun a b => x0 (ix2 a b)) ⟨1024 * (i 0).val + r.val, hr⟩ := by
  rw [out3_eq]
  exact block_lse x0 x1 i r u hr

/-- At grid point `t`, on that point's staging memrefs: block entry `(y0, y1)` of the first output is the specification at
    the array index `k` with `k 0 = 1024 t + y0`, `k 1 = y1`. -/
theorem point_orow (c : Dev nD) (t : Fin cfg0.N) (x0 x1 : Vec Ideal S8192x512 .bf16) (y0 : Fin 1024) (y1 : Fin 512)
    (k : S8192x512.Idx) (hk0 : (k 0).val = 1024 * t.val + y0.val) (hk1 : (k 1).val = y1.val) :
    out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) x0 x1 (ix2 y0 y1)
      = Cert.Spec.orow o1 (fun a b => x0 (ix2 a b)) (fun a b => x1 (ix2 a b)) (k 0) (k 1) := by
  have hN : cfg0.N = 8 := N_0
  have ht : t.val < 8 := by have := t.isLt; omega
  have hy0 : y0.val < 1024 := y0.isLt
  have hr : 1024 * ((grid0.coords t) 0).val + y0.val < 8192 := by rw [coords_val]; omega
  refine (out2_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) x0 x1 y0 y1 hr).trans ?_
  have a0 : (⟨1024 * ((grid0.coords t) 0).val + y0.val, hr⟩ : Fin 8192) = k 0 :=
    Fin.ext (by show 1024 * ((grid0.coords t) 0).val + y0.val = (k 0).val; rw [coords_val, hk0])
  have a1 : (y1 : Fin 512) = k 1 := Fin.ext hk1.symm
  rw [a0, a1]

/-- The same for the second output. -/
theorem point_lse (c : Dev nD) (t : Fin cfg0.N) (x0 x1 : Vec Ideal S8192x512 .bf16) (y0 : Fin 1024) (y1 : Fin 1)
    (k : S8192x1.Idx) (hk0 : (k 0).val = 1024 * t.val + y0.val) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) x0 x1 (ix2 y0 y1)
      = Cert.Spec.lse o1 (fun a b => x0 (ix2 a b)) (k 0) := by
  have hN : cfg0.N = 8 := N_0
  have ht : t.val < 8 := by have := t.isLt; omega
  have hy0 : y0.val < 1024 := y0.isLt
  have hr : 1024 * ((grid0.coords t) 0).val + y0.val < 8192 := by rw [coords_val]; omega
  refine (out3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) x0 x1 y0 y1 hr).trans ?_
  have a0 : (⟨1024 * ((grid0.coords t) 0).val + y0.val, hr⟩ : Fin 8192) = k 0 :=
    Fin.ext (by show 1024 * ((grid0.coords t) 0).val + y0.val = (k 0).val; rw [coords_val, hk0])
  rw [a0]

set_option backward.isDefEq.respectTransparency.types false in
/-- What point `t` leaves in the first output's staging buffer, at a block index `y` whose array index is `k`, when the
    two input arrays the region finds are `Q` and `Xb`. -/
theorem outs2_apply (c : Dev nD) (Q Xb : FVec Ideal S8192x512 .bf16)
    (hQ : V c (Pipeline.arrRef spec0 0) = Q) (hX : V c (Pipeline.arrRef spec0 1) = Xb)
    (t : Fin cfg0.N) (y : S1024x512.Idx) (k : S8192x512.Idx)
    (hk0 : (k 0).val = 1024 * t.val + (y 0).val) (hk1 : (k 1).val = (y 1).val) :
    (outsAt0 (F := Ideal) V c t).1 y
      = Cert.Spec.orow o1 (fun a b => Q (ix2 a b)) (fun a b => Xb (ix2 a b)) (k 0) (k 1) := by
  obtain ⟨r, e, rfl⟩ : ∃ (r : Fin 1024) (e : Fin 512), y = ix2 r e := ⟨y 0, y 1, eq_ix2 y⟩
  have hk0' : (k 0).val = 1024 * t.val + r.val := hk0
  have hk1' : (k 1).val = e.val := hk1
  have e0 : (iblk0 V c 0 t : Vec Ideal S8192x512 .bf16) = Q := (Cover.iblk0_0_eq V c t).trans hQ
  have e1 : (iblk0 V c 1 t : Vec Ideal S8192x512 .bf16) = Xb := (Cover.iblk0_1_eq V c t).trans hX
  have hp := point_orow c t (iblk0 V c 0 t) (iblk0 V c 1 t) r e k hk0' hk1'
  unfold outsAt0
  dsimp only
  exact hp.trans (by rw [e0, e1])

set_option backward.isDefEq.respectTransparency.types false in
/-- What point `t` leaves in the second output's staging buffer. -/
theorem outs3_apply (c : Dev nD) (Q Xb : FVec Ideal S8192x512 .bf16)
    (hQ : V c (Pipeline.arrRef spec0 0) = Q) (hX : V c (Pipeline.arrRef spec0 1) = Xb)
    (t : Fin cfg0.N) (y : S1024x1.Idx) (k : S8192x1.Idx)
    (hk0 : (k 0).val = 1024 * t.val + (y 0).val) (hk1 : (k 1).val = (y 1).val) :
    (outsAt0 (F := Ideal) V c t).2 y
      = Cert.Spec.lse o1 (fun a b => Q (ix2 a b)) (k 0) := by
  obtain ⟨r, e, rfl⟩ : ∃ (r : Fin 1024) (e : Fin 1), y = ix2 r e := ⟨y 0, y 1, eq_ix2 y⟩
  have hk0' : (k 0).val = 1024 * t.val + r.val := hk0
  have e0 : (iblk0 V c 0 t : Vec Ideal S8192x512 .bf16) = Q := (Cover.iblk0_0_eq V c t).trans hQ
  have e1 : (iblk0 V c 1 t : Vec Ideal S8192x512 .bf16) = Xb := (Cover.iblk0_1_eq V c t).trans hX
  have hp := point_lse c t (iblk0 V c 0 t) (iblk0 V c 1 t) r e k hk0'
  unfold outsAt0
  dsimp only
  exact hp.trans (by rw [e0])

set_option backward.isDefEq.respectTransparency.types false in
/-- The first output array after the region: the row-softmax of the Gram matrix of `Q` (at the fixed shift) times `Xb`,
    entry by entry. -/
theorem final_orow (c : Dev nD) (Q Xb : FVec Ideal S8192x512 .bf16)
    (hQ : V c (Pipeline.arrRef spec0 0) = Q) (hX : V c (Pipeline.arrRef spec0 1) = Xb) (r : Fin 8192) (d : Fin 512) :
    (dat0 (F := Ideal) V c).arrAt 2 cfg0.N (ix2 r d)
      = Cert.Spec.orow (Ideal.ofBits .f32 0x3F800000#32) (fun r d => Q (ix2 r d)) (fun r d => Xb (ix2 r d)) r d :=
  congrFun (Cover.final0_2_of_points (F := Ideal) V c
    (fun k => Cert.Spec.orow o1 (fun a b => Q (ix2 a b)) (fun a b => Xb (ix2 a b)) (k 0) (k 1))
    (fun t y k hk0 hk1 => outs2_apply V c Q Xb hQ hX t y k hk0 hk1)) (ix2 r d)

set_option backward.isDefEq.respectTransparency.types false in
/-- The second output array after the region: each row's log-sum-exp, in its one column. -/
theorem final_lse (c : Dev nD) (Q Xb : FVec Ideal S8192x512 .bf16)
    (hQ : V c (Pipeline.arrRef spec0 0) = Q) (hX : V c (Pipeline.arrRef spec0 1) = Xb) (r : Fin 8192) :
    (dat0 (F := Ideal) V c).arrAt 3 cfg0.N (ix2 r (0 : Fin 1))
      = Cert.Spec.lse (Ideal.ofBits .f32 0x3F800000#32) (fun r d => Q (ix2 r d)) r :=
  congrFun (Cover.final0_3_of_points (F := Ideal) V c
    (fun k => Cert.Spec.lse o1 (fun a b => Q (ix2 a b)) (k 0))
    (fun t y k hk0 hk1 => outs3_apply V c Q Xb hQ hX t y k hk0 hk1)) (ix2 r (0 : Fin 1))

end Cert.KernelIdeal.Region0

end
-- ==== Proof.Region1Acc.lean ====
/-
  The second kernel's accumulator as a recursion over its loop trips.

  The body zeroes a [512, 512] accumulator and then makes eight trips; trip k replaces the accumulator by
  "accumulator + (chunk k's term)", the chunk being rows 1024·k … 1024·k + 1023 of the two whole [8192, 512]
  arrays and columns 1024·k … of the [1, 8192] row.  `step` is one trip as a function of the whole arrays and of
  what the accumulator held; `acc k` is the accumulator after k trips.  Nothing about floats is used here.
-/
import proofs.«118167_j19035295056148_2_alg».proof.Proof.Gen.KernelIdeal.Skeleton
import Idealize.ShloMosaic.Lib.Pipeline.Value

noncomputable section

open Idealize.ShloMosaic Idealize.SL.Sem

namespace Cert.KernelIdeal.Region1

open Cert.KernelIdeal Cert.KernelIdeal.Gen

variable {F : FTy → Type} [FloatOps F]

/-- The zero offsets of a whole-buffer access. -/
theorem zero_offsets : (![0, 0] : Fin 2 → Nat) = fun _ => 0 := funext fun a => by fin_cases a <;> rfl

/-- The loop makes exactly eight trips. -/
theorem trips_eq : k1_t1_loop.trips = 8 := by decide +kernel

/-- A buffer whose last write covered the whole shape reads as that write's payload, whatever was written before. -/
theorem read_writes_cons_whole {Val : EltTy → Type} [∀ e, Nonempty (Val e)] {sig : RefSig} {κ : Kind} {sp : Space}
    {S : Shape} {e : EltTy} (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨⟨Rect.unit off S.size inb, w⟩, List.mem_cons_self, View.mem_set_unit_zero h inb y⟩),
    View.canon_cons_unit_zero h]

/-- One trip: the accumulator `a` plus chunk `k`'s term, the chunk being rows `1024·k …` of `X1` and `X2` and
    columns `1024·k …` of `X3`; `v3` is the row block of `X1` this grid point owns. -/
def step (v3 : Vec F S512x512 .bf16) (X1 X2 : Vec F S8192x512 .bf16) (X3 : Vec F S1x8192 .f32)
    (k : Fin k1_t1_loop.trips) (a : Vec F S512x512 .f32) : Vec F S512x512 .f32 :=
  k1_pay3 v3 (View.ld X1 (Rect.unit (s := S8192x512) (k1_off2 k) S1024x512.size (k1_off2_inb k)))
    (View.ld X2 (Rect.unit (s := S8192x512) (k1_off2 k) S1024x512.size (k1_off2_inb k)))
    (View.ld X3 (Rect.unit (s := S1x8192) (k1_off3 k) S1x1024.size (k1_off3_inb k))) a

/-- The accumulator after `k` trips: the zero block, then one `step` per trip. -/
def acc (v3 : Vec F S512x512 .bf16) (X1 X2 : Vec F S8192x512 .bf16) (X3 : Vec F S1x8192 .f32) : ℕ → Vec F S512x512 .f32
  | 0 => k1_pay2
  | k + 1 => if h : k < k1_t1_loop.trips then step v3 X1 X2 X3 ⟨k, h⟩ (acc v3 X1 X2 X3 k) else acc v3 X1 X2 X3 k

theorem acc_zero (v3 : Vec F S512x512 .bf16) (X1 X2 : Vec F S8192x512 .bf16) (X3 : Vec F S1x8192 .f32) :
    acc v3 X1 X2 X3 0 = k1_pay2 (F := F) := by rw [acc]

theorem acc_succ (v3 : Vec F S512x512 .bf16) (X1 X2 : Vec F S8192x512 .bf16) (X3 : Vec F S1x8192 .f32)
    (k : Fin k1_t1_loop.trips) :
    acc v3 X1 X2 X3 (k.val + 1) = step v3 X1 X2 X3 k (acc v3 X1 X2 X3 k.val) := by
  rw [acc]; exact dif_pos k.isLt

end Cert.KernelIdeal.Region1

end
-- ==== Proof.Region1Trip.lean ====
/-
  The second kernel at one grid point: what its accumulator holds after the counted loop, and what the body
  finally stores in the output block, as pure functions of the blocks it is given.

  Every trip of the loop writes the whole accumulator once, with one trip step of what it held; so after k trips it
  reads as the recursion `acc k`, by induction on the trips.  After the loop the body reads the accumulator back
  once and stores one whole-block value: the two closing payloads applied to `acc` at the last trip.  Nothing about
  floats is used, so the statements hold for every float instance.
-/
import proofs.«118167_j19035295056148_2_alg».proof.Proof.Gen.KernelIdeal.Frame
import proofs.«118167_j19035295056148_2_alg».proof.Proof.Region1Acc
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Region1

open Cert.KernelIdeal Cert.KernelIdeal.Gen

variable {F : FTy → Type} [FloatOps F]

section Trip

variable (𝒱 : Variants) (c : Dev nD) (bd : Option 𝒱.V) (i : grid1.Coords) (arg1 : Memref sig .tc .vmem S8192x512 .bf16) (harg1 : arg1.IsWhole) (arg2 : Memref sig .tc .vmem S8192x512 .bf16) (harg2 : arg2.IsWhole) (arg3 : Memref sig .tc .vmem S1x8192 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole)
  (v3 : Vec F S512x512 .bf16) (X1 : BufTy.Contents (Elt F) arg1.view.ty) (X2 : BufTy.Contents (Elt F) arg2.view.ty) (X3 : BufTy.Contents (Elt F) arg3.view.ty)

/-- What one trip writes: one store over the whole accumulator, of `step` at the chunk and at what the
    accumulator held. -/
theorem trip_pieces (k : Fin k1_t1_loop.trips) (f : BufTy.Contents (Elt F) arg9.view.ty) :
    tripL_k1_t1 (F := F) 𝒱 c bd i arg1 harg1 arg2 harg2 arg3 harg3 arg4 harg4 arg5 harg5 arg6 harg6 arg7 harg7 arg8 harg8 arg9 harg9 v3 X1 X2 X3 k f
      = [⟨Rect.unit (s := S512x512) ![0, 0] S512x512.size inb_S512x512_S512x512_0_0,
          step v3 (arg1.view.read (Elt F) X1) (arg2.view.read (Elt F) X2) (arg3.view.read (Elt F) X3) k (arg9.view.read (Elt F) f)⟩] := by
  unfold tripL_k1_t1 trip_k1_t1
  dsimp only
  unfold step
  simp only [View.readAt_eq_ld, View.ld_unit_zero (S := S512x512) zero_offsets]

/-- The accumulator after `k` trips of the loop, started from contents that read as the zero block, reads as `acc k`:
    by induction on the trips, each trip's one covering store read back whatever was there before. -/
theorem scratch_after (G : BufTy.Contents (Elt F) arg9.view.ty) (hG : arg9.view.read (Elt F) G = k1_pay2 (F := F))
    (k : ℕ) (hk : k ≤ k1_t1_loop.trips) :
      arg9.view.read (Elt F) (arg9.view.writes (Elt F) G
          (pb_k1_t1 (F := F) 𝒱 c bd i arg1 harg1 arg2 harg2 arg3 harg3 arg4 harg4 arg5 harg5 arg6 harg6 arg7 harg7 arg8 harg8 arg9 harg9 v3 X1 X2 X3 G k))
        = acc v3 (arg1.view.read (Elt F) X1) (arg2.view.read (Elt F) X2) (arg3.view.read (Elt F) X3) k := by
  induction k with
  | zero =>
    rw [pb_k1_t1.eq_1, View.writes_nil]; exact hG
  | succ k ih =>
    have hk' : k < k1_t1_loop.trips := Nat.lt_of_succ_le hk
    have ih' := ih (Nat.le_of_lt hk')
    have e1 : pb_k1_t1 (F := F) 𝒱 c bd i arg1 harg1 arg2 harg2 arg3 harg3 arg4 harg4 arg5 harg5 arg6 harg6 arg7 harg7 arg8 harg8 arg9 harg9 v3 X1 X2 X3 G (k + 1) = _ :=
      pb_k1_t1_succ (F := F) 𝒱 c bd i arg1 harg1 arg2 harg2 arg3 harg3 arg4 harg4 arg5 harg5 arg6 harg6 arg7 harg7 arg8 harg8 arg9 harg9 v3 X1 X2 X3 G ⟨k, hk'⟩
    rw [e1, trip_pieces, List.singleton_append]
    rw [read_writes_cons_whole (Val := Elt F) arg9.view G zero_offsets, ih']
    exact (acc_succ v3 _ _ _ ⟨k, hk'⟩).symm

end Trip

/-- What the body leaves in the output block at a grid point: the two closing payloads over the accumulator
    after the last trip. -/
theorem out_block (c : Dev nD) (i : grid1.Coords) (arg1 : Memref sig .tc .vmem S8192x512 .bf16) (harg1 : arg1.IsWhole) (arg2 : Memref sig .tc .vmem S8192x512 .bf16) (harg2 : arg2.IsWhole) (arg3 : Memref sig .tc .vmem S1x8192 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole)
    (x0 : Vec F S8192x512 .bf16) (x1 : Vec F S8192x512 .bf16) (x2 : Vec F S1x8192 .f32) (x3 : Vec F S512x512 .f32) (x4 : Vec F S512x512 .f32) (x5 : Vec F S1x512 .f32) (x6 : Vec F S1x512 .f32) :
    out1_A_7 (F := F) c i arg1 harg1 arg2 harg2 arg3 harg3 arg4 harg4 arg5 harg5 arg6 harg6 arg7 harg7 arg8 harg8 arg9 harg9 x0 x1 x2 x3 x4 x5 x6
      = k1_pay1 (k1_pay4 x3 x4
          (acc (View.ld x0 (Rect.unit (s := S8192x512) (k1_off1 i) S512x512.size (k1_off1_inb i))) x0 x1 x2 k1_t1_loop.trips)) x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 x0 x1 x2 x3 x4 x5 x6)]
  unfold kernelRun1_A
  dsimp only
  rw [View.canon_unit_zero zero_offsets]
  sl_unfold_run_names
  simp only [View.readAt_eq_ld, harg1.read_unread, harg2.read_unread, harg3.read_unread, harg4.read_unread, harg5.read_unread, harg6.read_unread, harg7.read_unread,
    View.ld_unit_zero (S := S512x512) zero_offsets, View.ld_unit_zero (S := S1x512) zero_offsets]
  rw [View.writes_append]
  have hG : arg9.view.read (Elt F) (arg9.view.writes (Elt F) arg9.view.junk
      [⟨Rect.unit (s := S512x512) ![0, 0] S512x512.size inb_S512x512_S512x512_0_0, k1_pay2 (F := F)⟩]) = k1_pay2 (F := F) := by
    rw [View.read_writes_junk_eq_canon, View.canon_unit_zero zero_offsets]
  have h := scratch_after (F := F) Variants.none c none i arg1 harg1 arg2 harg2 arg3 harg3 arg4 harg4 arg5 harg5 arg6 harg6 arg7 harg7 arg8 harg8 arg9 harg9
    (View.ld x0 (Rect.unit (s := S8192x512) (k1_off1 i) S512x512.size (k1_off1_inb i))) (harg1.unread x0) (harg2.unread x1) (harg3.unread x2) _ hG k1_t1_loop.trips (Nat.le_refl _)
  rw [harg1.read_unread, harg2.read_unread, harg3.read_unread] at h
  first | exact congrArg (fun a => k1_pay1 (k1_pay4 x3 x4 a) x5 x6) h | (trace_state; fail "close")

end Cert.KernelIdeal.Region1

end
-- ==== Proof.Region1Value.lean ====
/-
  The second kernel's block, read at an entry on the extended reals.

  With every float an extended real and every operation exact:
  • one loop trip adds to accumulator entry (r, d) the sum, over the 1024 rows n of its chunk, of
    exp ((∑ e, v3 (r, e) · X1 (n, e)) − X3 (0, n)) · X2 (n, d) — the first product is the row block times the
    transposed chunk, the [1, 1024] piece of X3 is repeated down the rows, and rounding to a shorter format changes
    nothing;
  • eight chunks of 1024 rows tile the 8192 rows and addition of extended reals is commutative and associative, so
    after the loop the entry is the sum over all rows — the transposed softmax-times-values `ocolL` of the
    specification, once v3 is known to be row j of X1;
  • the closing arithmetic is the specification's layer normalisation of row r of y = v10 − c · (v11 + accumulator):
    two lane sums kept as columns, a division by the feature count, a reciprocal square root, then a scale and a shift.
-/
import proofs.«118167_j19035295056148_2_alg».proof.Proof.Region1Acc
import proofs.«118167_j19035295056148_2_alg».proof.Proof.Spec
import proofs.«118167_j19035295056148_2_alg».proof.Proof.LibChunkedSum
import proofs.«118167_j19035295056148_2_alg».proof.Proof.LibPlainDot
import proofs.«118167_j19035295056148_2_alg».proof.Proof.LibKeepdims

noncomputable section

open Idealize.ShloMosaic Idealize.ShloMosaic.ValueIdx Idealize.SL.Sem
open scoped BigOperators

namespace Cert.KernelIdeal.Region1

open Cert.KernelIdeal Cert.KernelIdeal.Gen

/-- Row `q` of chunk `k`, as a row of the whole array: `1024·k + q`. -/
def chunkRow (k : Fin k1_t1_loop.trips) (q : Fin 1024) : Fin 8192 :=
  ⟨1024 * k.val + q.val, by have := k.isLt; have := trips_eq; omega⟩

/-- Chunk `k` of a whole [8192, 512] array reads, at `(q, e)`, the array at `(1024·k + q, e)`. -/
theorem ld_rows {Val : EltTy → Type} {el : EltTy} (X : S8192x512.Idx → Val el) (k : Fin k1_t1_loop.trips) (q : Fin 1024) (e : Fin 512) :
    View.ld X (Rect.unit (s := S8192x512) (k1_off2 k) S1024x512.size (k1_off2_inb k)) (ix2 q e)
      = X (ix2 (chunkRow k q) e) := by
  show X _ = X _
  refine congrArg X (funext fun a => Fin.ext ?_)
  have h0 : k1_off2 k 0 = 1024 * k.val := congrFun (k1_off2_eq k) 0
  have h1 : k1_off2 k 1 = 0 := congrFun (k1_off2_eq k) 1
  match a with
  | ⟨0, _⟩ => show k1_off2 k 0 + 1 * q.val = 1024 * k.val + q.val; omega
  | ⟨1, _⟩ => show k1_off2 k 1 + 1 * e.val = e.val; omega

/-- Chunk `k` of the [1, 8192] row reads, at `(0, q)`, the row at `(0, 1024·k + q)`. -/
theorem ld_cols {Val : EltTy → Type} {el : EltTy} (X : S1x8192.Idx → Val el) (k : Fin k1_t1_loop.trips) (u : Fin 1) (q : Fin 1024) :
    View.ld X (Rect.unit (s := S1x8192) (k1_off3 k) S1x1024.size (k1_off3_inb k)) (ix2 u q)
      = X (ix2 (0 : Fin 1) (chunkRow k q)) := by
  show X _ = X _
  refine congrArg X (funext fun a => Fin.ext ?_)
  have h0 : k1_off3 k 0 = 0 := congrFun (k1_off3_eq k) 0
  have h1 : k1_off3 k 1 = 1024 * k.val := congrFun (k1_off3_eq k) 1
  have hu : u.val = 0 := by omega
  match a with
  | ⟨0, _⟩ => show k1_off3 k 0 + 1 * u.val = 0; omega
  | ⟨1, _⟩ => show k1_off3 k 1 + 1 * q.val = 1024 * k.val + q.val; omega

/-- What row `n` of the whole arrays contributes to accumulator entry `(r, d)` (zero past the last row). -/
def term (v3 : Vec Ideal S512x512 .bf16) (X1 X2 : Vec Ideal S8192x512 .bf16) (X3 : Vec Ideal S1x8192 .f32)
    (r d : Fin 512) (n : ℕ) : EReal :=
  if h : n < 8192 then
    Ideal.exp ((∑ e : Fin 512, v3 (ix2 r e) * X1 (ix2 ⟨n, h⟩ e)) - X3 (ix2 (0 : Fin 1) ⟨n, h⟩)) * X2 (ix2 ⟨n, h⟩ d)
  else 0

/-- One trip at an entry: what the accumulator held, plus the chunk's 1024 row terms. -/
theorem step_apply (v3 : Vec Ideal S512x512 .bf16) (X1 X2 : Vec Ideal S8192x512 .bf16) (X3 : Vec Ideal S1x8192 .f32)
    (k : Fin k1_t1_loop.trips) (a : Vec Ideal S512x512 .f32) (r d : Fin 512) :
    step v3 X1 X2 X3 k a (ix2 r d) = a (ix2 r d) + Cert.Lib.ChunkedSum.chunk 1024 (term v3 X1 X2 X3 r d) k.val := by
  unfold step k1_pay3
  simp only [shapeCast_self]
  refine (addf_apply _ _ _).trans (congrArg (a (ix2 r d) + ·) ?_)
  refine (PlainDot.matmul_zero_apply (φ₁ := .bf16) (φ₂ := .bf16) dot_S512x1024_S1024x512_S512x512_1_0_0_1_n_n rfl none _ _ (ix2 r d)).trans ?_
  unfold Cert.Lib.ChunkedSum.chunk
  refine Finset.sum_congr rfl fun q _ => ?_
  have hn : 1024 * k.val + q.val < 8192 := (chunkRow k q).isLt
  rw [term, dif_pos hn]
  refine congrArg₂ (· * ·) ?_ (ld_rows X2 k q d)
  refine congrArg Ideal.exp (congrArg₂ (· - ·) ?_ ?_)
  · refine (PlainDot.matmul_zero_apply (φ₁ := .bf16) (φ₂ := .bf16) dot_S512x512_S512x1024_S512x1024_1_0_0_1_n_n rfl none _ _ (ix2 r q)).trans ?_
    refine Finset.sum_congr rfl fun e _ => congrArg (v3 (ix2 r e) * ·) ?_
    exact (transpose_ix2_apply _ _ e q).trans (ld_rows X1 k q e)
  · exact (broadcastTo_1b_ab_apply _ _ r q).trans (ld_cols X3 k 0 q)

/-- After `k` trips an accumulator entry is the sum of the first `k` chunks' row terms. -/
theorem acc_apply (v3 : Vec Ideal S512x512 .bf16) (X1 X2 : Vec Ideal S8192x512 .bf16) (X3 : Vec Ideal S1x8192 .f32)
    (r d : Fin 512) (k : ℕ) (hk : k ≤ k1_t1_loop.trips) :
    acc v3 X1 X2 X3 k (ix2 r d) = ∑ p ∈ Finset.range k, Cert.Lib.ChunkedSum.chunk 1024 (term v3 X1 X2 X3 r d) p := by
  induction k with
  | zero =>
    rw [acc_zero, Finset.sum_range_zero]
    unfold k1_pay2
    simp only [shapeCast_self]
    exact Ideal.ofBits_zero_f32
  | succ k ih =>
    have hk' : k < k1_t1_loop.trips := Nat.lt_of_succ_le hk
    have e : acc v3 X1 X2 X3 (k + 1) = step v3 X1 X2 X3 ⟨k, hk'⟩ (acc v3 X1 X2 X3 k) := acc_succ v3 X1 X2 X3 ⟨k, hk'⟩
    rw [e, step_apply, ih (Nat.le_of_lt hk'), Finset.sum_range_succ]

/-- After the last trip an accumulator entry is the sum over all 8192 rows. -/
theorem acc_last (v3 : Vec Ideal S512x512 .bf16) (X1 X2 : Vec Ideal S8192x512 .bf16) (X3 : Vec Ideal S1x8192 .f32)
    (r d : Fin 512) :
    acc v3 X1 X2 X3 k1_t1_loop.trips (ix2 r d)
      = ∑ n : Fin 8192, Ideal.exp ((∑ e : Fin 512, v3 (ix2 r e) * X1 (ix2 n e)) - X3 (ix2 (0 : Fin 1) n)) * X2 (ix2 n d) := by
  rw [acc_apply v3 X1 X2 X3 r d _ (Nat.le_refl _), trips_eq]
  refine (Cert.Lib.ChunkedSum.sum_chunks 8 1024 _).trans ?_
  show ∑ n : Fin 8192, term v3 X1 X2 X3 r d n.val = _
  refine Finset.sum_congr rfl fun n _ => ?_
  rw [term, dif_pos n.isLt]

/-- So, when `v3` is row block `j` of `X1`, the accumulator holds the specification's transposed
    softmax-times-values at row `j`. -/
theorem acc_eq_ocolL (v3 : Vec Ideal S512x512 .bf16) (X1 X2 : Vec Ideal S8192x512 .bf16) (X3 : Vec Ideal S1x8192 .f32)
    (j : Fin 8192) (r : Fin 512) (hv3 : ∀ e : Fin 512, v3 (ix2 r e) = X1 (ix2 j e)) (d : Fin 512) :
    acc v3 X1 X2 X3 k1_t1_loop.trips (ix2 r d)
      = Cert.Spec.ocolL (fun a b => X1 (ix2 a b)) (fun a b => X2 (ix2 a b)) (fun n => X3 (ix2 (0 : Fin 1) n)) j d := by
  rw [acc_last]
  unfold Cert.Spec.ocolL Cert.Spec.sim
  refine Finset.sum_congr rfl fun n _ => ?_
  simp only [hv3]

/-! ## The closing layer normalisation -/

local notation "cN" => Ideal.ofBits FTy.f32 0x44000000#32
local notation "cEps" => Ideal.ofBits FTy.f32 0x358637BD#32
local notation "cScale" => Ideal.ofBits FTy.f32 0x3DCCCCCD#32

/-- The mean of each row of a block, kept as a column: a lane sum, cast to a column, divided by the feature count. -/
def rowMean (y : FVec Ideal S512x512 .f32) : FVec Ideal S512x1 .f32 :=
  divf (shapeCast S512x1 (multiReduction .add [1] S512 y 0x00000000#32 reduces_S512x512_S512 (.inl rfl) rfl) shapeCasts_S512_S512x1)
    (broadcast S512x1 (Scalar.ofBits .f32 0x44000000#32))

theorem rowMean_apply (y : FVec Ideal S512x512 .f32) (r : Fin 512) (u : Fin 1) :
    rowMean y (ix2 r u) = Ideal.div (∑ d' : Fin 512, y (ix2 r d')) cN := by
  unfold rowMean
  refine (divf_apply _ _ _).trans (congrArg (Ideal.div · cN) ?_)
  exact (shapeCast_a_a1_apply _ _ r u).trans (multiReduction_add_axis1_apply y _ _ rfl r)

/-- A block minus its row means, at an entry. -/
theorem centered_apply (y : FVec Ideal S512x512 .f32) (r d : Fin 512) :
    subf y (broadcastTo S512x512 (rowMean y) broadcasts_S512x1_S512x512) (ix2 r d)
      = y (ix2 r d) - Ideal.div (∑ d' : Fin 512, y (ix2 r d')) cN :=
  (subf_apply _ _ _).trans (congrArg (y (ix2 r d) - ·)
    ((broadcastTo_a1_ab_apply _ _ r d).trans (rowMean_apply y r 0)))

/-- The normalised block (before the scale and the shift) at an entry: the specification's form on row `r` of
    `y = v10 − c · (v11 + v13)`. -/
theorem pay4_apply (v10 v11 v13 : Vec Ideal S512x512 .f32) (r d : Fin 512) :
    k1_pay4 v10 v11 v13 (ix2 r d)
      = ((v10 (ix2 r d) - cScale * (v11 (ix2 r d) + v13 (ix2 r d)))
            - Ideal.div (∑ d' : Fin 512, (v10 (ix2 r d') - cScale * (v11 (ix2 r d') + v13 (ix2 r d')))) cN)
          * Ideal.rsqrt (Ideal.div (∑ d' : Fin 512,
              ((v10 (ix2 r d') - cScale * (v11 (ix2 r d') + v13 (ix2 r d')))
                  - Ideal.div (∑ d'' : Fin 512, (v10 (ix2 r d'') - cScale * (v11 (ix2 r d'') + v13 (ix2 r d'')))) cN)
                * ((v10 (ix2 r d') - cScale * (v11 (ix2 r d') + v13 (ix2 r d')))
                  - Ideal.div (∑ d'' : Fin 512, (v10 (ix2 r d'') - cScale * (v11 (ix2 r d'') + v13 (ix2 r d'')))) cN)) cN
              + cEps) := by
  unfold k1_pay4
  simp only [shapeCast_self]
  refine (mulf_apply _ _ _).trans (congrArg₂ (· * ·) ?_ ?_)
  · exact centered_apply _ r d
  · refine (broadcastTo_a1_ab_apply _ _ r d).trans (congrArg Ideal.rsqrt ?_)
    refine (addf_apply _ _ _).trans (congrArg (· + cEps) ?_)
    refine (rowMean_apply _ r 0).trans (congrArg (Ideal.div · cN) (Finset.sum_congr rfl fun d' _ => ?_))
    exact (mulf_apply _ _ _).trans (congrArg₂ (· * ·) (centered_apply _ r d') (centered_apply _ r d'))

/-- The stored block at an entry: the normalised entry times the scale row plus the shift row. -/
theorem pay1_apply (v35 : FVec Ideal S512x512 .f32) (v36 v40 : Vec Ideal S1x512 .f32) (r d : Fin 512) :
    k1_pay1 v35 v36 v40 (ix2 r d) = v35 (ix2 r d) * v36 (ix2 (0 : Fin 1) d) + v40 (ix2 (0 : Fin 1) d) := by
  unfold k1_pay1
  simp only [shapeCast_self]
  refine (addf_apply _ _ _).trans (congrArg₂ (· + ·) ?_ (broadcastTo_1b_ab_apply _ _ r d))
  exact (mulf_apply _ _ _).trans (congrArg (v35 (ix2 r d) * ·) (broadcastTo_1b_ab_apply _ _ r d))

/-- The block at an entry.  At a grid point whose blocks are: `v3` = row `j` of `X1` at block row `r`, `x3` and `x4`
    = row `j` of `Xf` and `O` at block row `r`; the stored entry `(r, d)` is the specification's layer normalisation,
    at `(j, d)`, of `Xf − c · (O + ocolL)`. -/
theorem block_value (X1 X2 : Vec Ideal S8192x512 .bf16) (X3 : Vec Ideal S1x8192 .f32) (Xf O : FVec Ideal S8192x512 .f32)
    (v3 : Vec Ideal S512x512 .bf16) (x3 x4 : Vec Ideal S512x512 .f32) (x5 x6 : Vec Ideal S1x512 .f32)
    (j : Fin 8192) (r : Fin 512)
    (hv3 : ∀ e : Fin 512, v3 (ix2 r e) = X1 (ix2 j e))
    (h3 : ∀ e : Fin 512, x3 (ix2 r e) = Xf (ix2 j e)) (h4 : ∀ e : Fin 512, x4 (ix2 r e) = O (ix2 j e)) (d : Fin 512) :
    k1_pay1 (k1_pay4 x3 x4 (acc v3 X1 X2 X3 k1_t1_loop.trips)) x5 x6 (ix2 r d)
      = Cert.Spec.LN cN cEps
          (fun j d => Xf (ix2 j d) - cScale * (O (ix2 j d)
            + Cert.Spec.ocolL (fun a b => X1 (ix2 a b)) (fun a b => X2 (ix2 a b)) (fun n => X3 (ix2 (0 : Fin 1) n)) j d))
          (fun d => x5 (ix2 (0 : Fin 1) d)) (fun d => x6 (ix2 (0 : Fin 1) d)) j d := by
  rw [pay1_apply, pay4_apply]
  unfold Cert.Spec.LN Cert.Spec.mean
  simp only [h3, h4, acc_eq_ocolL v3 X1 X2 X3 j r hv3]

end Cert.KernelIdeal.Region1

end
-- ==== Proof.Region1Final.lean ====
/-
  The second kernel's result array, entry by entry.

  Grid point t owns rows 512·t … 512·t + 511.  Its windows onto the two whole [8192, 512] arrays, the [1, 8192] row and
  the two [1, 512] rows are those arrays themselves; its windows onto the two f32 [8192, 512] arrays are their row
  blocks t.  Hence what the point writes back at block entry (r, d) is the specification's layer normalisation at
  (512·t + r, d) of  Xf − c · (O + ocolL),  and since the sixteen blocks tile the 8192 rows, the result array is that
  function of (j, d) everywhere.
-/
import proofs.«118167_j19035295056148_2_alg».proof.Proof.Region1Trip
import proofs.«118167_j19035295056148_2_alg».proof.Proof.Region1Value
import proofs.«118167_j19035295056148_2_alg».proof.Proof.RegionCoverPoints

noncomputable section

open Idealize.ShloMosaic Idealize.ShloMosaic.TcCoe Idealize.ShloMosaic.ValueIdx Idealize.SL.Sem
open scoped BigOperators

namespace Cert.KernelIdeal.Region1

open Cert.KernelIdeal Cert.KernelIdeal.Gen

/-- A grid point's coordinate is its number (the grid has one axis). -/
theorem coords_val : ∀ t : Fin cfg1.N, ((grid1.coords t) 0).val = t.val :=
  (by decide +kernel : ∀ t : Fin grid1.N, ((grid1.coords t) 0).val = t.val)

/-- The row block a grid point owns, of a whole [8192, 512] array, reads at `(r, e)` the array at `(512·i + r, e)`. -/
theorem ld_block {Val : EltTy → Type} {el : EltTy} (X : S8192x512.Idx → Val el) (i : grid1.Coords) (r e : Fin 512) (j : Fin 8192)
    (hi : 512 * (i 0).val + r.val = j.val) :
    View.ld X (Rect.unit (s := S8192x512) (k1_off1 i) S512x512.size (k1_off1_inb i)) (ix2 r e) = X (ix2 j e) := by
  show X _ = X _
  refine congrArg X (funext fun a => Fin.ext ?_)
  have h0 : k1_off1 i 0 = 512 * (i 0).val := congrFun (k1_off1_eq i) 0
  have h1 : k1_off1 i 1 = 0 := congrFun (k1_off1_eq i) 1
  match a with
  | ⟨0, _⟩ => show k1_off1 i 0 + 1 * r.val = j.val; omega
  | ⟨1, _⟩ => show k1_off1 i 1 + 1 * e.val = e.val; omega

/-- What a grid point leaves at block entry `(r, d)`, for any blocks `x0 … x6` of which `x3`, `x4` are row `j` of
    `Xf`, `O` at block row `r`, with `j = 512·i + r`: the specification at `(j, d)`. -/
theorem point_value (c : Dev nD) (i : grid1.Coords) (arg1 : Memref sig .tc .vmem S8192x512 .bf16) (harg1 : arg1.IsWhole) (arg2 : Memref sig .tc .vmem S8192x512 .bf16) (harg2 : arg2.IsWhole) (arg3 : Memref sig .tc .vmem S1x8192 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole)
    (x0 x1 : Vec Ideal S8192x512 .bf16) (x2 : Vec Ideal S1x8192 .f32) (x3 x4 : Vec Ideal S512x512 .f32) (x5 x6 : Vec Ideal S1x512 .f32)
    (Xf O : FVec Ideal S8192x512 .f32) (j : Fin 8192) (r : Fin 512) (hi : 512 * (i 0).val + r.val = j.val)
    (h3 : ∀ e : Fin 512, x3 (ix2 r e) = Xf (ix2 j e)) (h4 : ∀ e : Fin 512, x4 (ix2 r e) = O (ix2 j e)) (d : Fin 512) :
    out1_A_7 (F := Ideal) c i arg1 harg1 arg2 harg2 arg3 harg3 arg4 harg4 arg5 harg5 arg6 harg6 arg7 harg7 arg8 harg8 arg9 harg9 x0 x1 x2 x3 x4 x5 x6 (ix2 r d)
      = Cert.Spec.LN (Ideal.ofBits .f32 0x44000000#32) (Ideal.ofBits .f32 0x358637BD#32)
          (fun j d => Xf (ix2 j d) - Ideal.ofBits .f32 0x3DCCCCCD#32 * (O (ix2 j d)
            + Cert.Spec.ocolL (fun a b => x0 (ix2 a b)) (fun a b => x1 (ix2 a b)) (fun n => x2 (ix2 (0 : Fin 1) n)) j d))
          (fun d => x5 (ix2 (0 : Fin 1) d)) (fun d => x6 (ix2 (0 : Fin 1) d)) j d := by
  rw [out_block]
  exact block_value x0 x1 x2 Xf O _ x3 x4 x5 x6 j r (fun e => ld_block x0 i r e j hi) h3 h4 d

set_option backward.isDefEq.respectTransparency.types false in
/-- The result array: at every `(j, d)` it is the specification's layer normalisation of `Xf − c · (O + ocolL)`,
    for the arrays the region finds. -/
theorem final_out (V : (c : Dev nD) → (b : Ref sig .tc) → Buf (Elt Ideal) ((c : Thread nD τ).loc b)) (c : Dev nD)
    (Q Xb : FVec Ideal S8192x512 .bf16) (Lr : FVec Ideal S1x8192 .f32) (Xf O : FVec Ideal S8192x512 .f32)
    (G2 B2 : FVec Ideal S1x512 .f32)
    (h0 : V c (Pipeline.arrRef spec1 0) = Q) (h1 : V c (Pipeline.arrRef spec1 1) = Xb)
    (h2 : V c (Pipeline.arrRef spec1 2) = Lr) (h3 : V c (Pipeline.arrRef spec1 3) = Xf)
    (h4 : V c (Pipeline.arrRef spec1 4) = O) (h5 : V c (Pipeline.arrRef spec1 5) = G2)
    (h6 : V c (Pipeline.arrRef spec1 6) = B2) (j : Fin 8192) (d : Fin 512) :
    (Gen.dat1 (F := Ideal) V c).arrAt 7 cfg1.N (ix2 j d)
      = Cert.Spec.LN (Ideal.ofBits .f32 0x44000000#32) (Ideal.ofBits .f32 0x358637BD#32)
          (fun j d => Xf (ix2 j d) - Ideal.ofBits .f32 0x3DCCCCCD#32 * (O (ix2 j d)
            + Cert.Spec.ocolL (fun a b => Q (ix2 a b)) (fun a b => Xb (ix2 a b)) (fun n => Lr (ix2 (0 : Fin 1) n)) j d))
          (fun d => G2 (ix2 (0 : Fin 1) d)) (fun d => B2 (ix2 (0 : Fin 1) d)) j d := by
  have key := Cover.final1_7_of_points (F := Ideal) V c
    (fun k => Cert.Spec.LN (Ideal.ofBits .f32 0x44000000#32) (Ideal.ofBits .f32 0x358637BD#32)
          (fun j d => Xf (ix2 j d) - Ideal.ofBits .f32 0x3DCCCCCD#32 * (O (ix2 j d)
            + Cert.Spec.ocolL (fun a b => Q (ix2 a b)) (fun a b => Xb (ix2 a b)) (fun n => Lr (ix2 (0 : Fin 1) n)) j d))
          (fun d => G2 (ix2 (0 : Fin 1) d)) (fun d => B2 (ix2 (0 : Fin 1) d)) ⟨(k 0).val, idx2_lt0 k⟩ ⟨(k 1).val, idx2_lt1 k⟩) ?_
  · exact congrFun key (ix2 j d)
  · intro t y k hk0 hk1
    obtain ⟨r, e, rfl⟩ : ∃ (r : Fin 512) (e : Fin 512), y = ix2 r e := ⟨y 0, y 1, eq_ix2 y⟩
    have hk0' : (k 0).val = 512 * t.val + r.val := hk0
    have hk1' : (k 1).val = e.val := hk1
    have hd : (⟨(k 1).val, idx2_lt1 k⟩ : Fin 512) = e := Fin.ext hk1'
    have e0 : (iblk1 V c 0 t : Vec Ideal S8192x512 .bf16) = Q := (Cover.iblk1_0_eq V c t).trans h0
    have e1 : (iblk1 V c 1 t : Vec Ideal S8192x512 .bf16) = Xb := (Cover.iblk1_1_eq V c t).trans h1
    have e2 : (iblk1 V c 2 t : Vec Ideal S1x8192 .f32) = Lr := (Cover.iblk1_2_eq V c t).trans h2
    have e5 : (iblk1 V c 5 t : Vec Ideal S1x512 .f32) = G2 := (Cover.iblk1_5_eq V c t).trans h5
    have e6 : (iblk1 V c 6 t : Vec Ideal S1x512 .f32) = B2 := (Cover.iblk1_6_eq V c t).trans h6
    have hx3 : ∀ e' : Fin 512, (iblk1 V c 3 t : Vec Ideal S512x512 .f32) (ix2 r e') = Xf (ix2 (⟨(k 0).val, idx2_lt0 k⟩ : Fin 8192) e') :=
      fun e' => (Cover.iblk1_3_apply V c t (ix2 r e') (ix2 (⟨(k 0).val, idx2_lt0 k⟩ : Fin 8192) e') hk0' rfl).trans (congrFun h3 _)
    have hx4 : ∀ e' : Fin 512, (iblk1 V c 4 t : Vec Ideal S512x512 .f32) (ix2 r e') = O (ix2 (⟨(k 0).val, idx2_lt0 k⟩ : Fin 8192) e') :=
      fun e' => (Cover.iblk1_4_apply V c t (ix2 r e') (ix2 (⟨(k 0).val, idx2_lt0 k⟩ : Fin 8192) e') hk0' rfl).trans (congrFun h4 _)
    have hi : 512 * ((grid1.coords t) 0).val + r.val = (⟨(k 0).val, idx2_lt0 k⟩ : Fin 8192).val := by
      rw [coords_val t]; exact hk0'.symm
    have hp := point_value c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t) scM1_0 (Memref.isWhole_whole _)
      (iblk1 V c 0 t) (iblk1 V c 1 t) (iblk1 V c 2 t) (iblk1 V c 3 t) (iblk1 V c 4 t) (iblk1 V c 5 t) (iblk1 V c 6 t)
      Xf O ⟨(k 0).val, idx2_lt0 k⟩ r hi hx3 hx4 e
    unfold outsAt1
    exact hp.trans (by rw [e0, e1, e2, e5, e6, ← hd])

end Cert.KernelIdeal.Region1

end
-- ==== Proof.KernelValue.lean ====
/-
  The idealized kernel's result, entry by entry, as the specification's kernel form of the launched arrays.

  The result array is what the second region's write-backs leave. Its block at a grid point is the layer
  normalisation of  y = x - c * (o_row + acc),  where acc is the transposed row-softmax times the rows, rebuilt from
  the log-sum-exp row. The second region reads: the normalised rows and the rows (both narrowed to a 16-bit format,
  the identity on extended reals), the log-sum-exp column transposed to a row, the rows themselves, the first region's
  first output, and the scale and shift reshaped to rows. The first region's two outputs are the row-softmax times the
  rows and the rows' log-sum-exp at the fixed shift. The normalised rows are the reference's own quotient
  x / max ‖x‖ cn, read at an entry. Substituting all of this gives the specification's `outK`.
-/
import proofs.«118167_j19035295056148_2_alg».proof.Proof.KernelGlue
import proofs.«118167_j19035295056148_2_alg».proof.Proof.RefValue
import proofs.«118167_j19035295056148_2_alg».proof.Proof.Spec
import proofs.«118167_j19035295056148_2_alg».proof.Proof.Region0Value
import proofs.«118167_j19035295056148_2_alg».proof.Proof.Region1Final
import Idealize.ShloMosaic.Lib.ValueIdx
import Idealize.ShloMosaic.Lib.ValueLayout
import Idealize.ShloMosaic.Lib.Pipeline.Value

set_option maxRecDepth 16384

noncomputable section

namespace Cert.KernelIdeal.Value

open Cert.KernelIdeal Cert.KernelIdeal.Gen Cert.KernelIdeal.Glue
open Idealize.ShloMosaic Idealize.ShloMosaic.TcCoe Idealize.ShloMosaic.StableHlo Idealize.SL.Sem
open Idealize.ShloMosaic.ValueIdx
open Idealize.ShloMosaic.Pipeline (Dat)

variable (m : (ℓ : Loc nD τ sig) → Buf (Elt Ideal) ℓ) (ρ : Dev nD → PrngReg)

local notation "lit1" => Ideal.ofBits FTy.f32 0x3F800000#32
local notation "litC" => Ideal.ofBits FTy.f32 0x3DCCCCCD#32
local notation "litCn" => Ideal.ofBits FTy.f32 0x2B8CBCCC#32
local notation "litN" => Ideal.ofBits FTy.f32 0x44000000#32
local notation "litE" => Ideal.ofBits FTy.f32 0x358637BD#32

set_option backward.isDefEq.respectTransparency.types false in
/-- The result buffer at the last boundary, at entry `(j, d)`, is the specification's kernel form of the launched
    input, scale and shift. -/
theorem kernel_value (c : Dev nD) (j : Fin 8192) (d : Fin 512) :
    W5 m ρ c (Proc.devRef .tc main_v11) (ix2 j d)
      = Cert.Spec.outK lit1 litC litCn litN litE (fun r d => X m c (ix2 r d)) (fun d => Gm m c (ix1 d)) (fun d => Bm m c (ix1 d)) j d := by
  have hO := Cert.KernelIdeal.Region0.final_orow
  have hL := Cert.KernelIdeal.Region0.final_lse
  have hD := Cert.KernelIdeal.Region1.final_out
  have e7 : W5 m ρ c (Proc.devRef .tc main_v11) = (dat1 (V4 m ρ) c).arrAt 7 cfg1.N := W5_arr m ρ c 7
  rw [e7, hD (V4 m ρ) c _ _ _ _ _ _ _ (W4_v5 m ρ c) (W4_v6 m ρ c) (W4_v8 m ρ c) (W4_arg0 m ρ c) (W4_orow m ρ c) (W4_v9 m ρ c) (W4_v10 m ρ c) j d]
  have hq : (fun (r : Fin 8192) (d : Fin 512) => (truncf .bf16 (Cert.ReferenceIdeal.Read.val_main_v4 (F := Ideal) (X m c)) bitsLt_bf16_f32 : FVec Ideal S8192x512 .bf16) (ix2 r d))
      = Cert.Spec.xn litCn (fun r d => X m c (ix2 r d)) := funext fun r => funext fun d => Cert.RefValue.q_at (X m c) r d
  have hx : (fun (r : Fin 8192) (d : Fin 512) => (truncf .bf16 (X m c) bitsLt_bf16_f32 : FVec Ideal S8192x512 .bf16) (ix2 r d))
      = fun r d => X m c (ix2 r d) := rfl
  have hOr : ∀ (j : Fin 8192) (d : Fin 512), (dat0 (V2 m ρ) c).arrAt 2 cfg0.N (ix2 j d)
      = Cert.Spec.orow lit1 (Cert.Spec.xn litCn (fun r d => X m c (ix2 r d))) (fun r d => X m c (ix2 r d)) j d := fun j d => by
    rw [hO (V2 m ρ) c _ _ (W2_v5 m ρ c) (W2_v6 m ρ c) j d, hq, hx]
  have hLs : ∀ i : Fin 8192, transpose S1x8192 [1, 0] ((dat0 (V2 m ρ) c).arrAt 3 cfg0.N) transposes_S8192x1_S1x8192_1_0 (ix2 (0 : Fin 1) i)
      = Cert.Spec.lse lit1 (Cert.Spec.xn litCn (fun r d => X m c (ix2 r d))) i := fun i => by
    refine (transpose_ix2_apply (a := 8192) (b := 1) _ _ (0 : Fin 1) i).trans ?_
    rw [hL (V2 m ρ) c _ _ (W2_v5 m ρ c) (W2_v6 m ρ c) i, hq]
  have hG : ∀ d : Fin 512, shapeCast S1x512 (Gm m c) shapeCasts_S512_S1x512 (ix2 (0 : Fin 1) d) = Gm m c (ix1 d) :=
    fun d => shapeCast_a_1a_apply (a := 512) _ _ (0 : Fin 1) d
  have hB : ∀ d : Fin 512, shapeCast S1x512 (Bm m c) shapeCasts_S512_S1x512 (ix2 (0 : Fin 1) d) = Bm m c (ix1 d) :=
    fun d => shapeCast_a_1a_apply (a := 512) _ _ (0 : Fin 1) d
  simp only [hq, hx, hOr, hLs, hG, hB]
  rfl

end Cert.KernelIdeal.Value

end
-- ==== Proof.lean ====
/-
  The certificate's claim: the kernel (a two-pass contrastive normalisation: row-softmax of the Gram matrix of the
  L2-normalised rows times the rows, its transpose rebuilt from the cached log-sum-exp, a residual and a layer
  normalisation) and its jnp reference (row softmax plus column softmax of the same Gram matrix, times the rows, the
  same residual and layer normalisation) end, on finite inputs, with equal results as extended reals.

  The frames are the generated frame certificates; the idealization rewrote nothing; the value claim is assembled in
  Proof/Assembly.lean from the kernel's result read entry by entry (Proof/KernelValue.lean), the reference's
  (Proof/RefValue.lean), and the real algebra joining the two forms (Proof/SpecAlgebra.lean, Proof/Bridge.lean):
  a softmax does not see a real shift, the Gram matrix is symmetric, and exp (s - (o + log l)) = exp (s - o) / l.
-/
import proofs.«118167_j19035295056148_2_alg».proof.Defs
import proofs.«118167_j19035295056148_2_alg».proof.Proof.Gen.Kernel
import proofs.«118167_j19035295056148_2_alg».proof.Proof.Gen.Kernel.Skeleton
import proofs.«118167_j19035295056148_2_alg».proof.Proof.Gen.Kernel.Loops
import proofs.«118167_j19035295056148_2_alg».proof.Proof.Gen.Kernel.Launch
import proofs.«118167_j19035295056148_2_alg».proof.Proof.Gen.Kernel.Points
import proofs.«118167_j19035295056148_2_alg».proof.Proof.Gen.Kernel.Frame
import proofs.«118167_j19035295056148_2_alg».proof.Proof.Gen.KernelIdeal
import proofs.«118167_j19035295056148_2_alg».proof.Proof.Gen.KernelIdeal.Skeleton
import proofs.«118167_j19035295056148_2_alg».proof.Proof.Gen.KernelIdeal.Loops
import proofs.«118167_j19035295056148_2_alg».proof.Proof.Gen.KernelIdeal.Launch
import proofs.«118167_j19035295056148_2_alg».proof.Proof.Gen.KernelIdeal.Points
import proofs.«118167_j19035295056148_2_alg».proof.Proof.Gen.KernelIdeal.Frame
import proofs.«118167_j19035295056148_2_alg».proof.Proof.Gen.ReferenceIdeal
import proofs.«118167_j19035295056148_2_alg».proof.Proof.Gen.Pre_finite_inputs
import proofs.«118167_j19035295056148_2_alg».proof.Proof.Assembly
import proofs.«118167_j19035295056148_2_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Assembly.frame_kernel, Cert.Proof.Assembly.frame_kernelIdeal, Cert.Proof.Assembly.frame_referenceIdeal,
  Cert.Proof.Assembly.preserves,
  Cert.Proof.Assembly.algebraic_of fun m ρ c j d => Cert.KernelIdeal.Value.kernel_value m ρ c j d⟩

end Cert.Proof

end
